-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v87) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1000x14x14 : Shape := ⟨4, ![128, 1000, 14, 14]⟩
abbrev S128 : Shape := ⟨1, ![128]⟩
abbrev S_ : Shape := ⟨0, ![]⟩

class Facts : Prop where
  bcast_S_S128x1000x14x14 : S_.BroadcastsInDim S128x1000x14x14 (![] : Fin 0 → Fin S128x1000x14x14.rank)
  reducesTo_S128x1000x14x14_S_d0_1_2_3 : S128x1000x14x14.ReducesTo [0, 1, 2, 3] S_
  h_S_ : 0 < S_.numel

variable [Facts]

def fn_part1 {F : FTy → Type} [FloatOps F] (main_v13 : IVec S_ 1) (main_v16 : IVec S128x1000x14x14 1) : IVec S_ 1 :=
  let main_c_5 : IVec S_ 1 := constantI S_ 1 1#1
  let main_v17 : IVec S_ 1 := (fun x v => Host.reduce IntOp.andi x v reducesTo_S128x1000x14x14_S_d0_1_2_3 h_S_) main_v16 main_c_5
  let main_v18 : IVec S_ 1 := andi main_v13 main_v17
  main_v18

def fn {F : FTy → Type} [FloatOps F] (main_arg0 : FVec F S128x1000x14x14 .f32) (main_arg1 : FVec F S128x1000x14x14 .f32) (main_arg2 : FVec F S128x1000x14x14 .f32) (main_arg3 : FVec F S128x1000x14x14 .f32) (main_arg4 : IVec S128 32) : IVec S_ 1 :=
  let main_v0 : FVec F S128x1000x14x14 .f32 := Host.absf main_arg0
  let main_cst : FVec F S_ .f32 := constant S_ .f32 0x7F800000#32
  let main_v1 : FVec F S128x1000x14x14 .f32 := broadcastInDim S128x1000x14x14 ![] bcast_S_S128x1000x14x14 main_cst
  let main_v2 : IVec S128x1000x14x14 1 := cmpf .olt main_v0 main_v1
  let main_c : IVec S_ 1 := constantI S_ 1 1#1
  let main_v3 : IVec S_ 1 := (fun x v => Host.reduce IntOp.andi x v reducesTo_S128x1000x14x14_S_d0_1_2_3 h_S_) main_v2 main_c
  let main_v4 : FVec F S128x1000x14x14 .f32 := Host.absf main_arg1
  let main_cst_0 : FVec F S_ .f32 := constant S_ .f32 0x7F800000#32
  let main_v5 : FVec F S128x1000x14x14 .f32 := broadcastInDim S128x1000x14x14 ![] bcast_S_S128x1000x14x14 main_cst_0
  let main_v6 : IVec S128x1000x14x14 1 := cmpf .olt main_v4 main_v5
  let main_c_1 : IVec S_ 1 := constantI S_ 1 1#1
  let main_v7 : IVec S_ 1 := (fun x v => Host.reduce IntOp.andi x v reducesTo_S128x1000x14x14_S_d0_1_2_3 h_S_) main_v6 main_c_1
  let main_v8 : IVec S_ 1 := andi main_v3 main_v7
  let main_v9 : FVec F S128x1000x14x14 .f32 := Host.absf main_arg2
  let main_cst_2 : FVec F S_ .f32 := constant S_ .f32 0x7F800000#32
  let main_v10 : FVec F S128x1000x14x14 .f32 := broadcastInDim S128x1000x14x14 ![] bcast_S_S128x1000x14x14 main_cst_2
  let main_v11 : IVec S128x1000x14x14 1 := cmpf .olt main_v9 main_v10
  let main_c_3 : IVec S_ 1 := constantI S_ 1 1#1
  let main_v12 : IVec S_ 1 := (fun x v => Host.reduce IntOp.andi x v reducesTo_S128x1000x14x14_S_d0_1_2_3 h_S_) main_v11 main_c_3
  let main_v13 : IVec S_ 1 := andi main_v8 main_v12
  let main_v14 : FVec F S128x1000x14x14 .f32 := Host.absf main_arg3
  let main_cst_4 : FVec F S_ .f32 := constant S_ .f32 0x7F800000#32
  let main_v15 : FVec F S128x1000x14x14 .f32 := broadcastInDim S128x1000x14x14 ![] bcast_S_S128x1000x14x14 main_cst_4
  let main_v16 : IVec S128x1000x14x14 1 := cmpf .olt main_v14 main_v15
  fn_part1 (F := F) main_v13 main_v16
-- ==== Kernel.lean ====
abbrev S128x1000x14x14 : Shape := ⟨4, ![128, 1000, 14, 14]⟩
abbrev S128 : Shape := ⟨1, ![128]⟩
abbrev S128x1000x196 : Shape := ⟨3, ![128, 1000, 196]⟩
abbrev S1x1000x1 : Shape := ⟨3, ![1, 1000, 1]⟩
abbrev S8x1000x196 : Shape := ⟨3, ![8, 1000, 196]⟩
abbrev S8x1000 : Shape := ⟨2, ![8, 1000]⟩
abbrev S8x1000x1 : Shape := ⟨3, ![8, 1000, 1]⟩
abbrev S1000x1 : Shape := ⟨2, ![1000, 1]⟩
abbrev S1000 : Shape := ⟨1, ![1000]⟩
abbrev S_ : Shape := ⟨0, ![]⟩
abbrev S128x1 : Shape := ⟨2, ![128, 1]⟩

abbrev nBuf : Space → Nat
  | .hbm => 137
  | .vmem => 12
  | .smem => 0
  | _ => 0

abbrev hbmTy0_0 (i : Nat) : BufTy := match i % 128 with
  | 0 => ⟨S128x1000x14x14, .f32⟩
  | 1 => ⟨S128x1000x14x14, .f32⟩
  | 2 => ⟨S128x1000x14x14, .f32⟩
  | 3 => ⟨S128x1000x14x14, .f32⟩
  | 4 => ⟨S128, .i32⟩
  | 5 => ⟨S128x1000x196, .f32⟩
  | 6 => ⟨S1x1000x1, .f32⟩
  | 7 => ⟨S1000, .f32⟩
  | 8 => ⟨S_, .f32⟩
  | 9 => ⟨S1000, .f32⟩
  | 10 => ⟨S1000, .f32⟩
  | 11 => ⟨S_, .i32⟩
  | 12 => ⟨S1000, .i32⟩
  | 13 => ⟨S_, .i32⟩
  | 14 => ⟨S_, .i32⟩
  | 15 => ⟨S128, .i32⟩
  | 16 => ⟨S128, .i32⟩
  | 17 => ⟨S_, .i32⟩
  | 18 => ⟨S128, .i32⟩
  | 19 => ⟨S128, .i1⟩
  | 20 => ⟨S_, .i32⟩
  | 21 => ⟨S128, .i32⟩
  | 22 => ⟨S128, .i32⟩
  | 23 => ⟨S128, .i32⟩
  | 24 => ⟨S128x1, .i32⟩
  | 25 => ⟨S_, .i32⟩
  | 26 => ⟨S128, .i32⟩
  | 27 => ⟨S1000, .i32⟩
  | 28 => ⟨S1000, .f32⟩
  | 29 => ⟨S_, .f32⟩
  | 30 => ⟨S1000, .f32⟩
  | 31 => ⟨S1000, .f32⟩
  | 32 => ⟨S1000, .f32⟩
  | 33 => ⟨S1000, .f32⟩
  | 34 => ⟨S_, .f32⟩
  | 35 => ⟨S_, .f32⟩
  | 36 => ⟨S_, .f32⟩
  | 37 => ⟨S_, .f32⟩
  | 38 => ⟨S128x1000x196, .f32⟩
  | 39 => ⟨S1x1000x1, .f32⟩
  | 40 => ⟨S1000, .f32⟩
  | 41 => ⟨S_, .f32⟩
  | 42 => ⟨S1000, .f32⟩
  | 43 => ⟨S1000, .f32⟩
  | 44 => ⟨S_, .i32⟩
  | 45 => ⟨S1000, .i32⟩
  | 46 => ⟨S_, .i32⟩
  | 47 => ⟨S_, .i32⟩
  | 48 => ⟨S128, .i32⟩
  | 49 => ⟨S128, .i32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S_, .i32⟩
  | 59 => ⟨S128, .i32⟩
  | 60 => ⟨S1000, .i32⟩
  | 61 => ⟨S1000, .f32⟩
  | 62 => ⟨S_, .f32⟩
  | 63 => ⟨S1000, .f32⟩
  | 64 => ⟨S1000, .f32⟩
  | 65 => ⟨S1000, .f32⟩
  | 66 => ⟨S1000, .f32⟩
  | 67 => ⟨S_, .f32⟩
  | 68 => ⟨S_, .f32⟩
  | 69 => ⟨S_, .f32⟩
  | 70 => ⟨S_, .f32⟩
  | 71 => ⟨S128x1000x196, .f32⟩
  | 72 => ⟨S1x1000x1, .f32⟩
  | 73 => ⟨S1000, .f32⟩
  | 74 => ⟨S_, .f32⟩
  | 75 => ⟨S1000, .f32⟩
  | 76 => ⟨S1000, .f32⟩
  | 77 => ⟨S_, .i32⟩
  | 78 => ⟨S1000, .i32⟩
  | 79 => ⟨S_, .i32⟩
  | 80 => ⟨S_, .i32⟩
  | 81 => ⟨S128, .i32⟩
  | 82 => ⟨S128, .i32⟩
  | 83 => ⟨S_, .i32⟩
  | 84 => ⟨S128, .i32⟩
  | 85 => ⟨S128, .i1⟩
  | 86 => ⟨S_, .i32⟩
  | 87 => ⟨S128, .i32⟩
  | 88 => ⟨S128, .i32⟩
  | 89 => ⟨S128, .i32⟩
  | 90 => ⟨S128x1, .i32⟩
  | 91 => ⟨S_, .i32⟩
  | 92 => ⟨S128, .i32⟩
  | 93 => ⟨S1000, .i32⟩
  | 94 => ⟨S1000, .f32⟩
  | 95 => ⟨S_, .f32⟩
  | 96 => ⟨S1000, .f32⟩
  | 97 => ⟨S1000, .f32⟩
  | 98 => ⟨S1000, .f32⟩
  | 99 => ⟨S1000, .f32⟩
  | 100 => ⟨S_, .f32⟩
  | 101 => ⟨S_, .f32⟩
  | 102 => ⟨S_, .f32⟩
  | 103 => ⟨S_, .f32⟩
  | 104 => ⟨S128x1000x196, .f32⟩
  | 105 => ⟨S1x1000x1, .f32⟩
  | 106 => ⟨S1000, .f32⟩
  | 107 => ⟨S_, .f32⟩
  | 108 => ⟨S1000, .f32⟩
  | 109 => ⟨S1000, .f32⟩
  | 110 => ⟨S_, .i32⟩
  | 111 => ⟨S1000, .i32⟩
  | 112 => ⟨S_, .i32⟩
  | 113 => ⟨S_, .i32⟩
  | 114 => ⟨S128, .i32⟩
  | 115 => ⟨S128, .i32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S_, .i32⟩
  | 125 => ⟨S128, .i32⟩
  | 126 => ⟨S1000, .i32⟩
  | 127 => ⟨S1000, .f32⟩
  | _ => ⟨S128x1000x14x14, .f32⟩

abbrev hbmTy0_1 (i : Nat) : BufTy := match i % 128 with
  | 0 => ⟨S_, .f32⟩
  | 1 => ⟨S1000, .f32⟩
  | 2 => ⟨S1000, .f32⟩
  | 3 => ⟨S1000, .f32⟩
  | 4 => ⟨S1000, .f32⟩
  | 5 => ⟨S_, .f32⟩
  | 6 => ⟨S_, .f32⟩
  | 7 => ⟨S_, .f32⟩
  | 8 => ⟨S_, .f32⟩
  | _ => ⟨S128x1000x14x14, .f32⟩

abbrev hbmTy (i : Nat) : BufTy := match i / 128 with
  | 0 => hbmTy0_0 i
  | 1 => hbmTy0_1 i
  | _ => ⟨S128x1000x14x14, .f32⟩

abbrev bufTy : (tb : Table) → Fin (tcTables nBuf tb) → BufTy
  | .hbm, ⟨i, _⟩ => hbmTy i
  | .local _ .vmem, ⟨0, _⟩ => ⟨S8x1000x196, .f32⟩
  | .local _ .vmem, ⟨1, _⟩ => ⟨S8x1000x196, .f32⟩
  | .local _ .vmem, ⟨2, _⟩ => ⟨S1x1000x1, .f32⟩
  | .local _ .vmem, ⟨3, _⟩ => ⟨S8x1000x196, .f32⟩
  | .local _ .vmem, ⟨4, _⟩ => ⟨S8x1000x196, .f32⟩
  | .local _ .vmem, ⟨5, _⟩ => ⟨S1x1000x1, .f32⟩
  | .local _ .vmem, ⟨6, _⟩ => ⟨S8x1000x196, .f32⟩
  | .local _ .vmem, ⟨7, _⟩ => ⟨S8x1000x196, .f32⟩
  | .local _ .vmem, ⟨8, _⟩ => ⟨S1x1000x1, .f32⟩
  | .local _ .vmem, ⟨9, _⟩ => ⟨S8x1000x196, .f32⟩
  | .local _ .vmem, ⟨10, _⟩ => ⟨S8x1000x196, .f32⟩
  | .local _ .vmem, ⟨11, _⟩ => ⟨S1x1000x1, .f32⟩
  | _, _ => ⟨S128x1000x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_c_9 : Ref sig .tc := ⟨.hbm, 46, rfl⟩
abbrev main_call1_v0 : Ref sig .tc := ⟨.hbm, 47, rfl⟩
abbrev main_call1_v1 : Ref sig .tc := ⟨.hbm, 48, rfl⟩
abbrev main_v28 : Ref sig .tc := ⟨.hbm, 49, rfl⟩
abbrev main_c_10 : Ref sig .tc := ⟨.hbm, 50, rfl⟩
abbrev main_v29 : Ref sig .tc := ⟨.hbm, 51, rfl⟩
abbrev main_v30 : Ref sig .tc := ⟨.hbm, 52, rfl⟩
abbrev main_c_11 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_12 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_v48 : Ref sig .tc := ⟨.hbm, 76, rfl⟩
abbrev main_c_17 : Ref sig .tc := ⟨.hbm, 77, rfl⟩
abbrev main_v49 : Ref sig .tc := ⟨.hbm, 78, rfl⟩
abbrev main_c_18 : Ref sig .tc := ⟨.hbm, 79, rfl⟩
abbrev main_call2_v0 : Ref sig .tc := ⟨.hbm, 80, rfl⟩
abbrev main_call2_v1 : Ref sig .tc := ⟨.hbm, 81, rfl⟩
abbrev main_v50 : Ref sig .tc := ⟨.hbm, 82, rfl⟩
abbrev main_c_19 : Ref sig .tc := ⟨.hbm, 83, rfl⟩
abbrev main_v51 : Ref sig .tc := ⟨.hbm, 84, rfl⟩
abbrev main_v52 : Ref sig .tc := ⟨.hbm, 85, rfl⟩
abbrev main_c_20 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_21 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_22 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_cst_24 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_25 : Ref sig .tc := ⟨.hbm, 107, rfl⟩
abbrev main_v69 : Ref sig .tc := ⟨.hbm, 108, rfl⟩
abbrev main_v70 : Ref sig .tc := ⟨.hbm, 109, rfl⟩
abbrev main_c_26 : Ref sig .tc := ⟨.hbm, 110, rfl⟩
abbrev main_v71 : Ref sig .tc := ⟨.hbm, 111, rfl⟩
abbrev main_c_27 : Ref sig .tc := ⟨.hbm, 112, rfl⟩
abbrev main_call3_v0 : Ref sig .tc := ⟨.hbm, 113, rfl⟩
abbrev main_call3_v1 : Ref sig .tc := ⟨.hbm, 114, rfl⟩
abbrev main_v72 : Ref sig .tc := ⟨.hbm, 115, rfl⟩
abbrev main_c_28 : Ref sig .tc := ⟨.hbm, 116, rfl⟩
abbrev main_v73 : Ref sig .tc := ⟨.hbm, 117, rfl⟩
abbrev main_v74 : Ref sig .tc := ⟨.hbm, 118, rfl⟩
abbrev main_c_29 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_30 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_31 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_32 : Ref sig .tc := ⟨.hbm, 133, rfl⟩
abbrev main_v86 : Ref sig .tc := ⟨.hbm, 134, rfl⟩
abbrev main_cst_33 : Ref sig .tc := ⟨.hbm, 135, rfl⟩
abbrev main_v87 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc2_sem0_0 : DmaSem sig := 6
abbrev cc2_sem0_1 : DmaSem sig := 7
abbrev cc2_sem1_0 : DmaSem sig := 8
abbrev cc3_sem0_0 : DmaSem sig := 9
abbrev cc3_sem0_1 : DmaSem sig := 10
abbrev cc3_sem1_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x1000x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S8x1000x196 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S8x1000x196 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S8x1000x196 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  shapeCasts_S128x1000x14x14_S128x1000x196 : S128x1000x14x14.ShapeCasts S128x1000x196
  inb_S1x1000x1_S1x1000x1_0_0_0 : ∀ a, (![0, 0, 0] : Fin 3 → Nat) a + S1x1000x1.size a ≤ S1x1000x1.size a
  h_S1x1000x1 : 0 < S1x1000x1.numel
  inb_S8x1000x196_S8x1000x196_0_0_0 : ∀ a, (![0, 0, 0] : Fin 3 → Nat) a + S8x1000x196.size a ≤ S8x1000x196.size a
  h_S8x1000x196 : 0 < S8x1000x196.numel
  shapeCasts_S8x1000x196_S8x1000x196 : S8x1000x196.ShapeCasts S8x1000x196
  reduces_S8x1000x196_S8x1000 : S8x1000x196.Reduces [2] S8x1000
  shapeCasts_S8x1000_S8x1000x1 : S8x1000.ShapeCasts S8x1000x1
  reduces_S8x1000x1_S1000x1 : S8x1000x1.Reduces [0] S1000x1
  shapeCasts_S1000x1_S1x1000x1 : S1000x1.ShapeCasts S1x1000x1
  shapeCasts_S1x1000x1_S1x1000x1 : S1x1000x1.ShapeCasts S1x1000x1
  shapeCasts_S1x1000x1_S1000 : S1x1000x1.ShapeCasts S1000
  bcast_S_S1000 : S_.BroadcastsInDim S1000 (![] : Fin 0 → Fin S1000.rank)
  bcast_S_S128 : S_.BroadcastsInDim S128 (![] : Fin 0 → Fin S128.rank)
  bcast_S128_S128x1_0 : S128.BroadcastsInDim S128x1 (![0] : Fin 1 → Fin S128x1.rank)
  reducesTo_S1000_S_d0 : S1000.ReducesTo [0] S_
  h_S_ : 0 < S_.numel
  scatter_S1000_S128x1_S128_n_0_0_1_wf : ScatterDims.WF S1000 S128x1 S128 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1000x196.size a ≤ S128x1000x196.size a
  hwx0_0 : ∀ i : grid0.Coords, EltTy.bits .f32 = 32 ∨ (Rect.block (s := S128x1000x196) S8x1000x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000x1.size a ≤ S1x1000x1.size a
  hwx0_1 : ∀ i : grid0.Coords, EltTy.bits .f32 = 32 ∨ (Rect.block (s := S1x1000x1) S1x1000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1000x196.size a ≤ S128x1000x196.size a
  hwx1_0 : ∀ i : grid1.Coords, EltTy.bits .f32 = 32 ∨ (Rect.block (s := S128x1000x196) S8x1000x196.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1000x1.size a ≤ S1x1000x1.size a
  hwx1_1 : ∀ i : grid1.Coords, EltTy.bits .f32 = 32 ∨ (Rect.block (s := S1x1000x1) S1x1000x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1000x196.size a ≤ S128x1000x196.size a
  hwx2_0 : ∀ i : grid2.Coords, EltTy.bits .f32 = 32 ∨ (Rect.block (s := S128x1000x196) S8x1000x196.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1000x1.size a ≤ S1x1000x1.size a
  hwx2_1 : ∀ i : grid2.Coords, EltTy.bits .f32 = 32 ∨ (Rect.block (s := S1x1000x1) S1x1000x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x1000x196.size a ≤ S128x1000x196.size a
  hwx3_0 : ∀ i : grid3.Coords, EltTy.bits .f32 = 32 ∨ (Rect.block (s := S128x1000x196) S8x1000x196.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1000x1.size a ≤ S1x1000x1.size a
  hwx3_1 : ∀ i : grid3.Coords, EltTy.bits .f32 = 32 ∨ (Rect.block (s := S1x1000x1) S1x1000x1.size (cc3_transform_1 i) (hinb3_1 i)).WholeWords (EltTy.packing .f32)

variable [Facts₀]

def scatter_S1000_S128x1_S128_n_0_0_1 : ScatterDims S1000 S128x1 S128 where
  updateWindowDims := []
  insertedWindowDims := [0]
  scatterDimsToOperandDims := [0]
  indexVectorDim := 1
  wf := scatter_S1000_S128x1_S128_n_0_0_1_wf

abbrev win0_0 : Pipeline.Window sig grid0 :=
  Pipeline.Window.ofSpec (Memref.whole main_v0) S8x1000x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v22) S8x1000x196.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1000x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v44) S8x1000x196.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x1000x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v66) S8x1000x196.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x1000x1.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S128x1000x14x14 : Shape := ⟨4, ![128, 1000, 14, 14]⟩
abbrev S128 : Shape := ⟨1, ![128]⟩
abbrev S_ : Shape := ⟨0, ![]⟩
abbrev S128x1000 : Shape := ⟨2, ![128, 1000]⟩
abbrev S1000 : Shape := ⟨1, ![1000]⟩
abbrev S128x1 : Shape := ⟨2, ![128, 1]⟩

abbrev nBuf : Space → Nat
  | .hbm => 153
  | .vmem => 0
  | .smem => 0
  | _ => 0

abbrev hbmTy0_0 (i : Nat) : BufTy := match i % 128 with
  | 0 => ⟨S128x1000x14x14, .f32⟩
  | 1 => ⟨S128x1000x14x14, .f32⟩
  | 2 => ⟨S128x1000x14x14, .f32⟩
  | 3 => ⟨S128x1000x14x14, .f32⟩
  | 4 => ⟨S128, .i32⟩
  | 5 => ⟨S_, .f32⟩
  | 6 => ⟨S128x1000, .f32⟩
  | 7 => ⟨S_, .f32⟩
  | 8 => ⟨S128x1000, .f32⟩
  | 9 => ⟨S128x1000, .f32⟩
  | 10 => ⟨S_, .f32⟩
  | 11 => ⟨S1000, .f32⟩
  | 12 => ⟨S_, .f32⟩
  | 13 => ⟨S1000, .f32⟩
  | 14 => ⟨S1000, .f32⟩
  | 15 => ⟨S_, .i32⟩
  | 16 => ⟨S1000, .i32⟩
  | 17 => ⟨S_, .i32⟩
  | 18 => ⟨S_, .i32⟩
  | 19 => ⟨S128, .i32⟩
  | 20 => ⟨S128, .i32⟩
  | 21 => ⟨S_, .i32⟩
  | 22 => ⟨S128, .i32⟩
  | 23 => ⟨S128, .i1⟩
  | 24 => ⟨S_, .i32⟩
  | 25 => ⟨S128, .i32⟩
  | 26 => ⟨S128, .i32⟩
  | 27 => ⟨S128, .i32⟩
  | 28 => ⟨S128x1, .i32⟩
  | 29 => ⟨S_, .i32⟩
  | 30 => ⟨S128, .i32⟩
  | 31 => ⟨S1000, .i32⟩
  | 32 => ⟨S1000, .f32⟩
  | 33 => ⟨S_, .f32⟩
  | 34 => ⟨S1000, .f32⟩
  | 35 => ⟨S1000, .f32⟩
  | 36 => ⟨S1000, .f32⟩
  | 37 => ⟨S1000, .f32⟩
  | 38 => ⟨S_, .f32⟩
  | 39 => ⟨S_, .f32⟩
  | 40 => ⟨S_, .f32⟩
  | 41 => ⟨S_, .f32⟩
  | 42 => ⟨S_, .f32⟩
  | 43 => ⟨S128x1000, .f32⟩
  | 44 => ⟨S_, .f32⟩
  | 45 => ⟨S128x1000, .f32⟩
  | 46 => ⟨S128x1000, .f32⟩
  | 47 => ⟨S_, .f32⟩
  | 48 => ⟨S1000, .f32⟩
  | 49 => ⟨S_, .f32⟩
  | 50 => ⟨S1000, .f32⟩
  | 51 => ⟨S1000, .f32⟩
  | 52 => ⟨S_, .i32⟩
  | 53 => ⟨S1000, .i32⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S128x1, .i32⟩
  | 66 => ⟨S_, .i32⟩
  | 67 => ⟨S128, .i32⟩
  | 68 => ⟨S1000, .i32⟩
  | 69 => ⟨S1000, .f32⟩
  | 70 => ⟨S_, .f32⟩
  | 71 => ⟨S1000, .f32⟩
  | 72 => ⟨S1000, .f32⟩
  | 73 => ⟨S1000, .f32⟩
  | 74 => ⟨S1000, .f32⟩
  | 75 => ⟨S_, .f32⟩
  | 76 => ⟨S_, .f32⟩
  | 77 => ⟨S_, .f32⟩
  | 78 => ⟨S_, .f32⟩
  | 79 => ⟨S_, .f32⟩
  | 80 => ⟨S128x1000, .f32⟩
  | 81 => ⟨S_, .f32⟩
  | 82 => ⟨S128x1000, .f32⟩
  | 83 => ⟨S128x1000, .f32⟩
  | 84 => ⟨S_, .f32⟩
  | 85 => ⟨S1000, .f32⟩
  | 86 => ⟨S_, .f32⟩
  | 87 => ⟨S1000, .f32⟩
  | 88 => ⟨S1000, .f32⟩
  | 89 => ⟨S_, .i32⟩
  | 90 => ⟨S1000, .i32⟩
  | 91 => ⟨S_, .i32⟩
  | 92 => ⟨S_, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S_, .i32⟩
  | 104 => ⟨S128, .i32⟩
  | 105 => ⟨S1000, .i32⟩
  | 106 => ⟨S1000, .f32⟩
  | 107 => ⟨S_, .f32⟩
  | 108 => ⟨S1000, .f32⟩
  | 109 => ⟨S1000, .f32⟩
  | 110 => ⟨S1000, .f32⟩
  | 111 => ⟨S1000, .f32⟩
  | 112 => ⟨S_, .f32⟩
  | 113 => ⟨S_, .f32⟩
  | 114 => ⟨S_, .f32⟩
  | 115 => ⟨S_, .f32⟩
  | 116 => ⟨S_, .f32⟩
  | 117 => ⟨S128x1000, .f32⟩
  | 118 => ⟨S_, .f32⟩
  | 119 => ⟨S128x1000, .f32⟩
  | 120 => ⟨S128x1000, .f32⟩
  | 121 => ⟨S_, .f32⟩
  | 122 => ⟨S1000, .f32⟩
  | 123 => ⟨S_, .f32⟩
  | 124 => ⟨S1000, .f32⟩
  | 125 => ⟨S1000, .f32⟩
  | 126 => ⟨S_, .i32⟩
  | 127 => ⟨S1000, .i32⟩
  | _ => ⟨S128x1000x14x14, .f32⟩

abbrev hbmTy0_1 (i : Nat) : BufTy := match i % 128 with
  | 0 => ⟨S_, .i32⟩
  | 1 => ⟨S_, .i32⟩
  | 2 => ⟨S128, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i32⟩
  | 10 => ⟨S128, .i32⟩
  | 11 => ⟨S128x1, .i32⟩
  | 12 => ⟨S_, .i32⟩
  | 13 => ⟨S128, .i32⟩
  | 14 => ⟨S1000, .i32⟩
  | 15 => ⟨S1000, .f32⟩
  | 16 => ⟨S_, .f32⟩
  | 17 => ⟨S1000, .f32⟩
  | 18 => ⟨S1000, .f32⟩
  | 19 => ⟨S1000, .f32⟩
  | 20 => ⟨S1000, .f32⟩
  | 21 => ⟨S_, .f32⟩
  | 22 => ⟨S_, .f32⟩
  | 23 => ⟨S_, .f32⟩
  | 24 => ⟨S_, .f32⟩
  | _ => ⟨S128x1000x14x14, .f32⟩

abbrev hbmTy (i : Nat) : BufTy := match i / 128 with
  | 0 => hbmTy0_0 i
  | 1 => hbmTy0_1 i
  | _ => ⟨S128x1000x14x14, .f32⟩

abbrev bufTy : (tb : Table) → Fin (tcTables nBuf tb) → BufTy
  | .hbm, ⟨i, _⟩ => hbmTy i
  | _, _ => ⟨S128x1000x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_c_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_cst_9 : Ref sig .tc := ⟨.hbm, 40, rfl⟩
abbrev main_v22 : Ref sig .tc := ⟨.hbm, 41, rfl⟩
abbrev main_cst_10 : Ref sig .tc := ⟨.hbm, 42, rfl⟩
abbrev main_v23 : Ref sig .tc := ⟨.hbm, 43, rfl⟩
abbrev main_cst_11 : Ref sig .tc := ⟨.hbm, 44, rfl⟩
abbrev main_v24 : Ref sig .tc := ⟨.hbm, 45, rfl⟩
abbrev main_v25 : Ref sig .tc := ⟨.hbm, 46, rfl⟩
abbrev main_cst_12 : Ref sig .tc := ⟨.hbm, 47, rfl⟩
abbrev main_v26 : Ref sig .tc := ⟨.hbm, 48, rfl⟩
abbrev main_cst_13 : Ref sig .tc := ⟨.hbm, 49, rfl⟩
abbrev main_v27 : Ref sig .tc := ⟨.hbm, 50, rfl⟩
abbrev main_v28 : Ref sig .tc := ⟨.hbm, 51, rfl⟩
abbrev main_c_14 : Ref sig .tc := ⟨.hbm, 52, rfl⟩
abbrev main_v29 : Ref sig .tc := ⟨.hbm, 53, rfl⟩
abbrev main_c_15 : Ref sig .tc := ⟨.hbm, 54, rfl⟩
abbrev main_call1_v0 : Ref sig .tc := ⟨.hbm, 55, rfl⟩
abbrev main_call1_v1 : Ref sig .tc := ⟨.hbm, 56, rfl⟩
abbrev main_v30 : Ref sig .tc := ⟨.hbm, 57, rfl⟩
abbrev main_c_16 : Ref sig .tc := ⟨.hbm, 58, rfl⟩
abbrev main_v31 : Ref sig .tc := ⟨.hbm, 59, rfl⟩
abbrev main_v32 : Ref sig .tc := ⟨.hbm, 60, rfl⟩
abbrev main_c_17 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_18 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_19 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_20 : Ref sig .tc := ⟨.hbm, 75, rfl⟩
abbrev main_v44 : Ref sig .tc := ⟨.hbm, 76, rfl⟩
abbrev main_cst_21 : Ref sig .tc := ⟨.hbm, 77, rfl⟩
abbrev main_v45 : Ref sig .tc := ⟨.hbm, 78, rfl⟩
abbrev main_cst_22 : Ref sig .tc := ⟨.hbm, 79, rfl⟩
abbrev main_v46 : Ref sig .tc := ⟨.hbm, 80, rfl⟩
abbrev main_cst_23 : Ref sig .tc := ⟨.hbm, 81, rfl⟩
abbrev main_v47 : Ref sig .tc := ⟨.hbm, 82, rfl⟩
abbrev main_v48 : Ref sig .tc := ⟨.hbm, 83, rfl⟩
abbrev main_cst_24 : Ref sig .tc := ⟨.hbm, 84, rfl⟩
abbrev main_v49 : Ref sig .tc := ⟨.hbm, 85, rfl⟩
abbrev main_cst_25 : Ref sig .tc := ⟨.hbm, 86, rfl⟩
abbrev main_v50 : Ref sig .tc := ⟨.hbm, 87, rfl⟩
abbrev main_v51 : Ref sig .tc := ⟨.hbm, 88, rfl⟩
abbrev main_c_26 : Ref sig .tc := ⟨.hbm, 89, rfl⟩
abbrev main_v52 : Ref sig .tc := ⟨.hbm, 90, rfl⟩
abbrev main_c_27 : Ref sig .tc := ⟨.hbm, 91, rfl⟩
abbrev main_call2_v0 : Ref sig .tc := ⟨.hbm, 92, rfl⟩
abbrev main_call2_v1 : Ref sig .tc := ⟨.hbm, 93, rfl⟩
abbrev main_v53 : Ref sig .tc := ⟨.hbm, 94, rfl⟩
abbrev main_c_28 : Ref sig .tc := ⟨.hbm, 95, rfl⟩
abbrev main_v54 : Ref sig .tc := ⟨.hbm, 96, rfl⟩
abbrev main_v55 : Ref sig .tc := ⟨.hbm, 97, rfl⟩
abbrev main_c_29 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_30 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_31 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_32 : Ref sig .tc := ⟨.hbm, 112, rfl⟩
abbrev main_v67 : Ref sig .tc := ⟨.hbm, 113, rfl⟩
abbrev main_cst_33 : Ref sig .tc := ⟨.hbm, 114, rfl⟩
abbrev main_v68 : Ref sig .tc := ⟨.hbm, 115, rfl⟩
abbrev main_cst_34 : Ref sig .tc := ⟨.hbm, 116, rfl⟩
abbrev main_v69 : Ref sig .tc := ⟨.hbm, 117, rfl⟩
abbrev main_cst_35 : Ref sig .tc := ⟨.hbm, 118, rfl⟩
abbrev main_v70 : Ref sig .tc := ⟨.hbm, 119, rfl⟩
abbrev main_v71 : Ref sig .tc := ⟨.hbm, 120, rfl⟩
abbrev main_cst_36 : Ref sig .tc := ⟨.hbm, 121, rfl⟩
abbrev main_v72 : Ref sig .tc := ⟨.hbm, 122, rfl⟩
abbrev main_cst_37 : Ref sig .tc := ⟨.hbm, 123, rfl⟩
abbrev main_v73 : Ref sig .tc := ⟨.hbm, 124, rfl⟩
abbrev main_v74 : Ref sig .tc := ⟨.hbm, 125, rfl⟩
abbrev main_c_38 : Ref sig .tc := ⟨.hbm, 126, rfl⟩
abbrev main_v75 : Ref sig .tc := ⟨.hbm, 127, rfl⟩
abbrev main_c_39 : Ref sig .tc := ⟨.hbm, 128, rfl⟩
abbrev main_call3_v0 : Ref sig .tc := ⟨.hbm, 129, rfl⟩
abbrev main_call3_v1 : Ref sig .tc := ⟨.hbm, 130, rfl⟩
abbrev main_v76 : Ref sig .tc := ⟨.hbm, 131, rfl⟩
abbrev main_c_40 : Ref sig .tc := ⟨.hbm, 132, rfl⟩
abbrev main_v77 : Ref sig .tc := ⟨.hbm, 133, rfl⟩
abbrev main_v78 : Ref sig .tc := ⟨.hbm, 134, rfl⟩
abbrev main_c_41 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_42 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_43 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_44 : Ref sig .tc := ⟨.hbm, 149, rfl⟩
abbrev main_v90 : Ref sig .tc := ⟨.hbm, 150, rfl⟩
abbrev main_cst_45 : Ref sig .tc := ⟨.hbm, 151, rfl⟩
abbrev main_v91 : Ref sig .tc := ⟨.hbm, 152, rfl⟩

abbrev nD : Nat := 1
abbrev τ : Topo := Topo.v7x

variable {F : FTy → Type} [FloatOps F]

class Facts₀ : Prop where
  reducesTo_S128x1000x14x14_S128x1000_d2_3 : S128x1000x14x14.ReducesTo [2, 3] S128x1000
  h_S_ : 0 < S_.numel
  bcast_S_S128x1000 : S_.BroadcastsInDim S128x1000 (![] : Fin 0 → Fin S128x1000.rank)
  reducesTo_S128x1000_S1000_d0 : S128x1000.ReducesTo [0] S1000
  bcast_S_S1000 : S_.BroadcastsInDim S1000 (![] : Fin 0 → Fin S1000.rank)
  bcast_S_S128 : S_.BroadcastsInDim S128 (![] : Fin 0 → Fin S128.rank)
  bcast_S128_S128x1_0 : S128.BroadcastsInDim S128x1 (![0] : Fin 1 → Fin S128x1.rank)
  reducesTo_S1000_S_d0 : S1000.ReducesTo [0] S_
  scatter_S1000_S128x1_S128_n_0_0_1_wf : ScatterDims.WF S1000 S128x1 S128 [] [0] [0] 1

variable [Facts₀]

def scatter_S1000_S128x1_S128_n_0_0_1 : ScatterDims S1000 S128x1 S128 where
  updateWindowDims := []
  insertedWindowDims := [0]
  scatterDimsToOperandDims := [0]
  indexVectorDim := 1
  wf := scatter_S1000_S128x1_S128_n_0_0_1_wf

class Facts : Prop extends Facts₀ where

variable [Facts]
-- ==== Proof.KernelRun.lean ====
/-
  The kernel program's run, read: what its four results hold when it ends.

  The program is four launches of the summing kernel, one per input, each followed by the same host arithmetic. For
  launch r, write tot_r for the [1, 1000, 1] array of channel totals the launch leaves. The host then computes, from
  tot_r and the labels,

      loss tot labels = mean over the 1000 channels of | tot_c / 25088 - count_c / 128 |

  where count_c is the number of labels equal to c (a scatter-add of ones into zeros at the labels, negative labels
  first clamped to zero). This file states that function once (loss) and proves that every weakly fair execution
  terminates with result r at loss tot_r labels and the arguments unchanged (run_values): the program is its chain of
  host stretches and launches, the contents at each boundary are the stretch's operations applied to the contents
  before it, and a result written in one stretch is not touched by the later ones.
-/
import proofs.«133881_j87454124081405_2_alg».proof.Proof.Gen.KernelIdeal.Frame
import Idealize.ShloMosaic.Lib.StableHlo.Run
import Idealize.ShloMosaic.Lib.Pipeline.Value

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host arithmetic after a launch -/

/-- The calibration loss from the channel totals a launch leaves and the labels: the mean over the channels of the
    distance between the channel's mean activation (its total over 25088 entries) and the channel's share of the
    128 labels. -/
def loss (tot : Vec F S1x1000x1 .f32) (labels : IVec S128 32) : FVec F S_ .f32 :=
  Host.divf
    (Host.reduceAdd
      (Host.absf
        (subf
          (Host.divf (shapeCast S1000 tot shapeCasts_S1x1000x1_S1000)
            (broadcastInDim S1000 ![] bcast_S_S1000 (constant S_ .f32 0x46C40000#32)))
          (Host.divf
            (sitofp .f32
              (Host.scatter scatter_S1000_S128x1_S128_n_0_0_1 IntOp.addi
                (broadcastInDim S1000 ![] bcast_S_S1000 (constantI S_ 32 0#32))
                (broadcastInDim S128x1 ![0] bcast_S128_S128x1_0
                  (select
                    (cmpi .slt (maxsi (broadcastInDim S128 ![] bcast_S_S128 (id (constantI S_ 32 0#32))) labels)
                      (broadcastInDim S128 ![] bcast_S_S128 (constantI S_ 32 0#32)))
                    (addi (maxsi (broadcastInDim S128 ![] bcast_S_S128 (id (constantI S_ 32 0#32))) labels)
                      (broadcastInDim S128 ![] bcast_S_S128 (constantI S_ 32 1000#32)))
                    (maxsi (broadcastInDim S128 ![] bcast_S_S128 (id (constantI S_ 32 0#32))) labels)))
                (broadcastInDim S128 ![] bcast_S_S128 (constantI S_ 32 1#32))))
            (broadcastInDim S1000 ![] bcast_S_S1000 (constant S_ .f32 0x43000000#32)))))
      (constant S_ .f32 0x00000000#32) reducesTo_S1000_S_d0 h_S_)
    (constant S_ .f32 0x447A0000#32)

/-! ## The run, with every unscoped buffer read at the last boundary's contents -/

set_option backward.isDefEq.respectTransparency.types false in
/-- Every weakly fair execution terminates, nothing faulting, and every buffer that is not a scratch buffer ends at
    the contents of the last boundary of the chain of host stretches and launches. -/
theorem run_last : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

/-! ## The labels reach every stretch unchanged -/

theorem labels_W2 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp

theorem labels_W6 (c : Dev nD) : W6 m ρ c (Proc.devRef .tc main_arg4) = m ((c : Thread nD τ).loc main_arg4) := by
  rw [W6_of_ne m ρ c main_arg4 (by decide)]
  show StableHlo.after hostOps1_2 (W4 m ρ c) (Proc.devRef .tc main_arg4) = _
  after_results_simp
  exact labels_W2 m ρ c

theorem labels_W10 (c : Dev nD) : W10 m ρ c (Proc.devRef .tc main_arg4) = m ((c : Thread nD τ).loc main_arg4) := by
  rw [W10_of_ne m ρ c main_arg4 (by decide)]
  show StableHlo.after hostOps2_2 (W8 m ρ c) (Proc.devRef .tc main_arg4) = _
  after_results_simp
  exact labels_W6 m ρ c

theorem labels_W14 (c : Dev nD) : W14 m ρ c (Proc.devRef .tc main_arg4) = m ((c : Thread nD τ).loc main_arg4) := by
  rw [W14_of_ne m ρ c main_arg4 (by decide)]
  show StableHlo.after hostOps3_2 (W12 m ρ c) (Proc.devRef .tc main_arg4) = _
  after_results_simp
  exact labels_W10 m ρ c

/-! ## Each result at the last boundary -/

/-- The first result is written in the stretch after launch 0, from launch 0's totals. -/
theorem last_v21 (c : Dev nD) : W17 m ρ c (Proc.devRef .tc main_v21)
    = loss ((dat0 (V1 m ρ) c).arrAt 1 cfg0.N) (m ((c : Thread nD τ).loc main_arg4)) := by
  show StableHlo.after hostOps4_2 (W16 m ρ c) (Proc.devRef .tc main_v21) = _
  after_results_simp
  rw [W14_of_ne m ρ c main_v21 (by decide)]
  after_results_simp
  rw [W10_of_ne m ρ c main_v21 (by decide)]
  after_results_simp
  rw [W6_of_ne m ρ c main_v21 (by decide)]
  after_results_simp
  rw [labels_W2 m ρ c, show W2 m ρ c (Proc.devRef .tc main_v1) = (dat0 (V1 m ρ) c).arrAt 1 cfg0.N from W2_arr m ρ c 1]
  rfl

/-- The second result is written in the stretch after launch 1, from launch 1's totals. -/
theorem last_v43 (c : Dev nD) : W17 m ρ c (Proc.devRef .tc main_v43)
    = loss ((dat1 (V5 m ρ) c).arrAt 1 cfg1.N) (m ((c : Thread nD τ).loc main_arg4)) := by
  show StableHlo.after hostOps4_2 (W16 m ρ c) (Proc.devRef .tc main_v43) = _
  after_results_simp
  rw [W14_of_ne m ρ c main_v43 (by decide)]
  after_results_simp
  rw [W10_of_ne m ρ c main_v43 (by decide)]
  after_results_simp
  rw [labels_W6 m ρ c, show W6 m ρ c (Proc.devRef .tc main_v23) = (dat1 (V5 m ρ) c).arrAt 1 cfg1.N from W6_arr m ρ c 1]
  rfl

/-- The third result is written in the stretch after launch 2, from launch 2's totals. -/
theorem last_v65 (c : Dev nD) : W17 m ρ c (Proc.devRef .tc main_v65)
    = loss ((dat2 (V9 m ρ) c).arrAt 1 cfg2.N) (m ((c : Thread nD τ).loc main_arg4)) := by
  show StableHlo.after hostOps4_2 (W16 m ρ c) (Proc.devRef .tc main_v65) = _
  after_results_simp
  rw [W14_of_ne m ρ c main_v65 (by decide)]
  after_results_simp
  rw [labels_W10 m ρ c, show W10 m ρ c (Proc.devRef .tc main_v45) = (dat2 (V9 m ρ) c).arrAt 1 cfg2.N from W10_arr m ρ c 1]
  rfl

/-- The fourth result is written in the last stretch, from launch 3's totals. -/
theorem last_v87 (c : Dev nD) : W17 m ρ c (Proc.devRef .tc main_v87)
    = loss ((dat3 (V13 m ρ) c).arrAt 1 cfg3.N) (m ((c : Thread nD τ).loc main_arg4)) := by
  show StableHlo.after hostOps4_2 (W16 m ρ c) (Proc.devRef .tc main_v87) = _
  after_results_simp
  rw [labels_W14 m ρ c, show W14 m ρ c (Proc.devRef .tc main_v67) = (dat3 (V13 m ρ) c).arrAt 1 cfg3.N from W14_arr m ρ c 1]
  rfl

/-! ## The launches' inputs: each is its argument with the pixels flattened -/

theorem input0 (c : Dev nD) : V1 m ρ c main_v0
    = shapeCast S128x1000x196 (m ((c : Thread nD τ).loc main_arg0)) shapeCasts_S128x1000x14x14_S128x1000x196 := by
  show StableHlo.after hostOps0 (W0 m ρ c) (Proc.devRef .tc main_v0) = _
  after_results_simp
  rfl

theorem arg1_W2 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp

theorem input1 (c : Dev nD) : V5 m ρ c main_v22
    = shapeCast S128x1000x196 (m ((c : Thread nD τ).loc main_arg1)) shapeCasts_S128x1000x14x14_S128x1000x196 := by
  show StableHlo.after hostOps1_2 (W4 m ρ c) (Proc.devRef .tc main_v22) = _
  after_results_simp
  rw [arg1_W2 m ρ c]
  rfl

theorem arg2_W6 (c : Dev nD) : W6 m ρ c (Proc.devRef .tc main_arg2) = m ((c : Thread nD τ).loc main_arg2) := by
  rw [W6_of_ne m ρ c main_arg2 (by decide)]
  show StableHlo.after hostOps1_2 (W4 m ρ c) (Proc.devRef .tc main_arg2) = _
  after_results_simp
  rw [W2_of_ne m ρ c main_arg2 (by decide)]
  show StableHlo.after hostOps0 (W0 m ρ c) (Proc.devRef .tc main_arg2) = _
  after_results_simp

theorem input2 (c : Dev nD) : V9 m ρ c main_v44
    = shapeCast S128x1000x196 (m ((c : Thread nD τ).loc main_arg2)) shapeCasts_S128x1000x14x14_S128x1000x196 := by
  show StableHlo.after hostOps2_2 (W8 m ρ c) (Proc.devRef .tc main_v44) = _
  after_results_simp
  rw [arg2_W6 m ρ c]
  rfl

theorem arg3_W10 (c : Dev nD) : W10 m ρ c (Proc.devRef .tc main_arg3) = m ((c : Thread nD τ).loc main_arg3) := by
  rw [W10_of_ne m ρ c main_arg3 (by decide)]
  show StableHlo.after hostOps2_2 (W8 m ρ c) (Proc.devRef .tc main_arg3) = _
  after_results_simp
  rw [W6_of_ne m ρ c main_arg3 (by decide)]
  show StableHlo.after hostOps1_2 (W4 m ρ c) (Proc.devRef .tc main_arg3) = _
  after_results_simp
  rw [W2_of_ne m ρ c main_arg3 (by decide)]
  show StableHlo.after hostOps0 (W0 m ρ c) (Proc.devRef .tc main_arg3) = _
  after_results_simp

theorem input3 (c : Dev nD) : V13 m ρ c main_v66
    = shapeCast S128x1000x196 (m ((c : Thread nD τ).loc main_arg3)) shapeCasts_S128x1000x14x14_S128x1000x196 := by
  show StableHlo.after hostOps3_2 (W12 m ρ c) (Proc.devRef .tc main_v66) = _
  after_results_simp
  rw [arg3_W10 m ρ c]
  rfl

/-! ## The run, read -/

/-- Every weakly fair execution terminates with each result at the loss of its launch's totals and the labels, and
    the arguments unchanged. -/
theorem run_values : θ_run defs (onTc (τ := τ) (main (F := F))) ⟨m, fun _ => 0, ρ⟩ (fun r => ∀ c : Dev nD,
      r.2.mem ((c.tc : Thread nD τ).loc main_v21) = loss ((dat0 (V1 m ρ) c).arrAt 1 cfg0.N) (m ((c : Thread nD τ).loc main_arg4))
      ∧ r.2.mem ((c.tc : Thread nD τ).loc main_v43) = loss ((dat1 (V5 m ρ) c).arrAt 1 cfg1.N) (m ((c : Thread nD τ).loc main_arg4))
      ∧ r.2.mem ((c.tc : Thread nD τ).loc main_v65) = loss ((dat2 (V9 m ρ) c).arrAt 1 cfg2.N) (m ((c : Thread nD τ).loc main_arg4))
      ∧ r.2.mem ((c.tc : Thread nD τ).loc main_v87) = loss ((dat3 (V13 m ρ) c).arrAt 1 cfg3.N) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_v21 (by decide)).trans (last_v21 m ρ c), (h c main_v43 (by decide)).trans (last_v43 m ρ c),
     (h c main_v65 (by decide)).trans (last_v65 m ρ c), (h c main_v87 (by decide)).trans (last_v87 m ρ c),
     (h c main_arg0 (by decide)).trans (W17_main_arg0 m ρ c), (h c main_arg1 (by decide)).trans (W17_main_arg1 m ρ c),
     (h c main_arg2 (by decide)).trans (W17_main_arg2 m ρ c), (h c main_arg3 (by decide)).trans (W17_main_arg3 m ρ c),
     (h c main_arg4 (by decide)).trans (W17_main_arg4 m ρ c)⟩)
    (run_last m ρ)

end Cert.KernelIdeal.KRun

end
-- ==== Proof.LibNormalize.lean ====
/-
  Extended-real lemmas for programs that normalize by a clamped Euclidean norm, and a tiling of finite sums.

  * the coercion of a finite real sum is the sum of the coercions (coe_sum);
  * dividing each factor of a sum of products by a nonzero real, or the sum by the product of the two divisors, is the
    same extended real when the factors are real (normalize_comm) — distributivity, which is why the factors must be real;
  * the larger of the square root of a sum of squares of reals (taken from zero) and a positive real is a positive real
    (norm_pos_real);
  * a sum over Fin (A * B) is the sum over A tiles of B consecutive indices (sum_fin_tile);
  * an extended real times (1 - 1) is zero and times (1 - 0) is itself (mask_diag, mask_off).
-/
import Idealize.ShloMosaic.PureOps.Ideal
import Idealize.ShloMosaic.PureOps.Ideal.Laws
import Mathlib.Algebra.BigOperators.Fin

noncomputable section

namespace Cert.LibNormalize

open Idealize.ShloMosaic
open scoped BigOperators

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing each factor by a nonzero real before the sum of products, or the sum of products by the product of the
    two divisors afterwards, is the same extended real when every factor is real. -/
theorem normalize_comm {ι : Type*} (s : Finset ι) (a b : ι → ℝ) {cr ds : ℝ} (hc : cr ≠ 0) (hd : ds ≠ 0) :
    ∑ k ∈ s, Ideal.div (a k : EReal) (cr : EReal) * Ideal.div (b k : EReal) (ds : EReal)
      = Ideal.div (∑ k ∈ s, (a k : EReal) * (b k : EReal)) ((cr : EReal) * (ds : EReal)) := by
  have hcd : cr * ds ≠ 0 := mul_ne_zero hc hd
  rw [← EReal.coe_mul cr ds, Ideal.div_coe hcd]
  simp only [Ideal.div_coe hc, Ideal.div_coe hd, ← EReal.coe_mul]
  rw [← coe_sum, ← coe_sum, ← EReal.coe_mul]
  congr 1
  rw [Finset.sum_mul]
  refine Finset.sum_congr rfl fun k _ => ?_
  field_simp

/-- The clamped norm of a row of reals — the larger of the square root of the sum of squares (taken from zero) and a
    positive real clamp — is a positive real. -/
theorem norm_pos_real {ι : Type*} (s : Finset ι) (a : ι → ℝ) {e : ℝ} (he : 0 < e) :
    ∃ cr : ℝ, 0 < cr ∧ max (Ideal.sqrt (0 + ∑ k ∈ s, (a k : EReal) * (a k : EReal))) (e : EReal) = (cr : EReal) := by
  refine ⟨max (Real.sqrt (∑ k ∈ s, a k * a k)) e, lt_max_of_lt_right he, ?_⟩
  have h0 : (0 : ℝ) ≤ ∑ k ∈ s, a k * a k := Finset.sum_nonneg fun k _ => mul_self_nonneg _
  simp only [← EReal.coe_mul]
  rw [← coe_sum, zero_add, Ideal.sqrt_coe, if_neg (not_lt.mpr h0)]
  exact (EReal.coe_strictMono.monotone.map_max).symm

/-- A sum over `Fin (A * B)` is the sum over `A` consecutive tiles of length `B`. -/
theorem sum_fin_tile {M : Type*} [AddCommMonoid M] (A B : ℕ) (h : Fin (A * B) → M) :
    ∑ r, h r = ∑ i : Fin A, ∑ p : Fin B, h (finProdFinEquiv (i, p)) := by
  rw [← Equiv.sum_comp finProdFinEquiv h, Fintype.sum_prod_type]

/-- The masked entry: an entry times one minus the indicator of the diagonal is zero on the diagonal and the entry off
    it, whatever extended real the entry is. -/
theorem mask_diag (x : EReal) : x * ((1 : EReal) - ((1 : ℝ) : EReal)) = 0 := by
  rw [EReal.coe_one, show (1 : EReal) - 1 = 0 from by rw [← EReal.coe_one, ← EReal.coe_sub]; simp, mul_zero]

theorem mask_off (x : EReal) : x * ((1 : EReal) - ((0 : ℝ) : EReal)) = x := by
  rw [EReal.coe_zero, sub_zero, mul_one]

end Cert.LibNormalize

end
-- ==== Proof.Consts.lean ====
/-
  The float literals the two programs spell, as the extended reals their bit patterns denote: zero, the three
  divisors 196 = 14 * 14 (pixels of a map), 128 (maps of a batch) and 25088 = 128 * 196 (all of them), and the
  bound +inf that the finiteness precondition compares against.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 196.0 denotes the real 196. -/
theorem ofBits_196 : Ideal.ofBits .f32 0x43440000#32 = ((196 : ℝ) : EReal) := by
  simp [Ideal.ofBits, Ideal.ieee, -EReal.coe_mul]; norm_num

/-- The word of 128.0 denotes the real 128. -/
theorem ofBits_128 : Ideal.ofBits .f32 0x43000000#32 = ((128 : ℝ) : EReal) := by
  simp [Ideal.ofBits, Ideal.ieee, -EReal.coe_mul]; norm_num

/-- The word of 25088.0 denotes the real 25088. -/
theorem ofBits_25088 : Ideal.ofBits .f32 0x46C40000#32 = ((25088 : ℝ) : EReal) := by
  simp [Ideal.ofBits, Ideal.ieee, -EReal.coe_mul]; norm_num

/-- The word 0x7F800000 denotes +inf. -/
theorem ofBits_inf : Ideal.ofBits .f32 0x7F800000#32 = ⊤ := by
  simp [Ideal.ofBits, Ideal.ieee]

end Cert.Consts

end
-- ==== Proof.MeanAlgebra.lean ====
/-
  The mathematics shared by the four outputs, with no program in sight.

  For one channel, the kernel adds up every pixel of every map of the batch — 16 tiles of 8 maps, 196 pixels each,
  accumulated tile after tile from zero — and divides once by 128 * 196 = 25088. The reference takes each map's mean
  over its 14 x 14 pixels (a sum from zero divided by 196) and then the mean of those over the 128 maps (a sum from
  zero divided by 128).

  * An accumulator started at zero and fed s 0, s 1, ..., s n holds the sum of them (accum_eq_sum): addition of
    extended reals is associative and commutative, so no finiteness is needed for this.
  * Sixteen tiles of eight maps are the 128 maps (sum_tiles), and the 196 pixels of a flattened map are the 14 rows
    of 14 (sum_pixels, through the row-major reading of the flattening, reshape_pixels).
  * For real entries, the mean of the per-map means is the grand total divided by 25088 (mean_of_means). This is
    where finiteness is used: dividing a sum term by term is distributivity, which fails at the infinities.
  * An extended real whose absolute value lies below +inf is a real (real_of_abs_lt_top).
-/
import Idealize.ShloMosaic.PureOps.Ideal
import Idealize.ShloMosaic.PureOps.Ideal.Laws
import Idealize.ShloMosaic.Lib.ValueIdx
import Idealize.ShloMosaic.Lib.Pipeline.Value
import proofs.«133881_j87454124081405_2_alg».proof.Proof.LibNormalize
import proofs.«133881_j87454124081405_2_alg».proof.Proof.Consts

noncomputable section

namespace Cert.MeanAlgebra

open Idealize.ShloMosaic Idealize.ShloMosaic.ValueIdx
open scoped BigOperators

/-! ## The accumulator -/

/-- The running total after the tiles 0, ..., n, started from zero: the order the grid visits them in. -/
def accum (s : ℕ → EReal) : ℕ → EReal
  | 0 => 0 + s 0
  | n + 1 => accum s n + s (n + 1)

/-- The running total is the sum of the tiles met so far. -/
theorem accum_eq_sum (s : ℕ → EReal) : ∀ n, accum s n = ∑ t ∈ Finset.range (n + 1), s t
  | 0 => by simp [accum]
  | n + 1 => by rw [accum, accum_eq_sum s n, Finset.sum_range_succ _ (n + 1)]

/-- Sixteen tiles of eight maps each are the 128 maps: if tile t's k-th term is G at map 8 t + k, the tiles' sums
    add up to the sum of G over all maps. -/
theorem sum_tiles (S : ℕ → Fin 8 → EReal) (G : Fin 128 → EReal)
    (h : ∀ (t : Fin 16) (k : Fin 8), S t.val k = G (finProdFinEquiv (t, k))) :
    ∑ t ∈ Finset.range 16, ∑ k : Fin 8, S t k = ∑ b : Fin 128, G b := by
  rw [Finset.sum_range (fun t => ∑ k : Fin 8, S t k)]
  rw [show (∑ b : Fin 128, G b) = ∑ t : Fin 16, ∑ k : Fin 8, G (finProdFinEquiv (t, k)) from
    Cert.LibNormalize.sum_fin_tile 16 8 G]
  exact Finset.sum_congr rfl fun t _ => Finset.sum_congr rfl fun k _ => h t k

/-! ## The pixels of a map, flattened or not -/

/-- The flattening [128, 1000, 14, 14] -> [128, 1000, 196] read at (b, c, l): pixel l is row l / 14, column l % 14. -/
theorem reshape_pixels {α : Type} (x : (⟨4, ![128, 1000, 14, 14]⟩ : Shape).Idx → α)
    (h : (⟨4, ![128, 1000, 14, 14]⟩ : Shape).ShapeCasts ⟨3, ![128, 1000, 196]⟩)
    (b : Fin 128) (c : Fin 1000) (l : Fin 196) :
    shapeCast ⟨3, ![128, 1000, 196]⟩ x h (ix3 b c l)
      = x (ix4 b c (⟨l.val / 14, by have := l.isLt; omega⟩ : Fin 14) (⟨l.val % 14, by omega⟩ : Fin 14)) :=
  shapeCast_apply x h _ _ (by
    rw [Shape.rowMajor_val_four, Shape.rowMajor_val_three]
    show ((b.val * 1000 + c.val) * 14 + l.val / 14) * 14 + l.val % 14 = (b.val * 1000 + c.val) * 196 + l.val
    omega)

/-- The 196 flattened pixels of a map are its 14 rows of 14. -/
theorem sum_pixels (x : (⟨4, ![128, 1000, 14, 14]⟩ : Shape).Idx → EReal)
    (h : (⟨4, ![128, 1000, 14, 14]⟩ : Shape).ShapeCasts ⟨3, ![128, 1000, 196]⟩) (b : Fin 128) (c : Fin 1000) :
    ∑ l : Fin 196, shapeCast ⟨3, ![128, 1000, 196]⟩ x h (ix3 b c l) = ∑ i : Fin 14, ∑ j : Fin 14, x (ix4 b c i j) := by
  rw [show (∑ l : Fin 196, shapeCast ⟨3, ![128, 1000, 196]⟩ x h (ix3 b c l))
      = ∑ i : Fin 14, ∑ j : Fin 14, shapeCast ⟨3, ![128, 1000, 196]⟩ x h (ix3 b c (finProdFinEquiv (i, j))) from
    Cert.LibNormalize.sum_fin_tile 14 14 fun l => shapeCast ⟨3, ![128, 1000, 196]⟩ x h (ix3 b c l)]
  refine Finset.sum_congr rfl fun i _ => Finset.sum_congr rfl fun j _ => ?_
  rw [reshape_pixels]
  congr 1
  have e : ((finProdFinEquiv (i, j) : Fin (14 * 14)) : ℕ) = j.val + 14 * i.val := rfl
  have hi := i.isLt
  have hj := j.isLt
  funext a
  match a with
  | ⟨0, _⟩ => rfl
  | ⟨1, _⟩ => rfl
  | ⟨2, _⟩ => exact Fin.ext (by show (finProdFinEquiv (i, j) : Fin (14 * 14)).val / 14 = i.val; rw [e]; omega)
  | ⟨3, _⟩ => exact Fin.ext (by show (finProdFinEquiv (i, j) : Fin (14 * 14)).val % 14 = j.val; rw [e]; omega)

/-- Pixel (i, j) of map b at channel c, as an index of the whole input. -/
def pixelEmb (b : Fin 128) (c : Fin 1000) : Fin 14 × Fin 14 ↪ (⟨4, ![128, 1000, 14, 14]⟩ : Shape).Idx :=
  ⟨fun p => ix4 b c p.1 p.2, fun p q h => Prod.ext (congrFun h 2) (congrFun h 3)⟩

/-- The entries of the input that a sum over the two pixel axes gathers at (b, c) are the 14 x 14 pixels of map b
    at channel c. -/
theorem sum_drop_pixels (x : (⟨4, ![128, 1000, 14, 14]⟩ : Shape).Idx → EReal)
    (h : (⟨4, ![128, 1000, 14, 14]⟩ : Shape).ReducesTo [2, 3] ⟨2, ![128, 1000]⟩) (b : Fin 128) (c : Fin 1000) :
    ∑ i ∈ Finset.univ.filter (fun i => h.drop i = ix2 b c), x i = ∑ i : Fin 14, ∑ j : Fin 14, x (ix4 b c i j) := by
  have hf : Finset.univ.filter (fun i : (⟨4, ![128, 1000, 14, 14]⟩ : Shape).Idx => h.drop i = ix2 b c)
      = Finset.univ.map (pixelEmb b c) := by
    ext i
    simp only [Finset.mem_filter, Finset.mem_univ, true_and, Finset.mem_map, pixelEmb, Function.Embedding.coeFn_mk]
    constructor
    · intro hd
      refine ⟨(i 2, i 3), ?_⟩
      funext a
      match a with
      | ⟨0, _⟩ => exact Fin.ext (congrArg Fin.val (congrFun hd 0)).symm
      | ⟨1, _⟩ => exact Fin.ext (congrArg Fin.val (congrFun hd 1)).symm
      | ⟨2, _⟩ => rfl
      | ⟨3, _⟩ => rfl
    · rintro ⟨p, rfl⟩
      funext a
      match a with
      | ⟨0, _⟩ => rfl
      | ⟨1, _⟩ => rfl
  rw [hf, Finset.sum_map, Fintype.sum_prod_type]
  rfl

/-! ## The law: a mean of means is the grand mean -/

/-- For real per-map totals a b, the mean over the maps of the per-map means (each a sum from zero divided by 196,
    then a sum from zero divided by 128) is the grand total divided by 25088. -/
theorem mean_of_means {ι : Type*} (s : Finset ι) (a : ι → ℝ) :
    Ideal.div (0 + ∑ b ∈ s, Ideal.div (0 + (a b : EReal)) ((196 : ℝ) : EReal)) ((128 : ℝ) : EReal)
      = Ideal.div (∑ b ∈ s, (a b : EReal)) ((25088 : ℝ) : EReal) := by
  simp only [zero_add, Ideal.div_coe (by norm_num : (196 : ℝ) ≠ 0), Ideal.div_coe (by norm_num : (128 : ℝ) ≠ 0),
    Ideal.div_coe (by norm_num : (25088 : ℝ) ≠ 0), ← EReal.coe_mul, ← Cert.LibNormalize.coe_sum]
  congr 1
  rw [← Finset.sum_mul, mul_assoc]
  norm_num

/-! ## Finite entries are reals -/

/-- An extended real whose absolute value (the larger of it and its negation) lies below +inf is a real. -/
theorem real_of_abs_lt_top (x : EReal) (h : max x (-x) < ⊤) : ∃ r : ℝ, x = (r : EReal) := by
  induction x using EReal.rec with
  | bot => simp at h
  | top => simp at h
  | coe r => exact ⟨r, rfl⟩

end Cert.MeanAlgebra

end
-- ==== Proof.TileSum.lean ====
/-
  What one grid point adds. The body loads a tile x of 8 maps (8 x 1000 x 196), sums each map's 196 pixels, sums
  those over the tile's 8 maps, and adds the result, channel by channel, to the running [1, 1000, 1] total acc.
  Read at channel c and at the ideal values this is

      acc (0, c, 0) + sum over the 8 maps k of the tile, sum over the 196 pixels l, of x (k, c, l)        (step_apply)

  and the block the first point starts from is zero (start_apply). Feeding the tiles 0, 1, ..., n to this step from
  the zero block gives, at channel c, the accumulator of the tiles' totals (fold_apply). The four calls of the kernel
  have the same body, so the steps of calls 1, 2, 3 are the step of call 0 (step1_eq, ...).
-/
import proofs.«133881_j87454124081405_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«133881_j87454124081405_2_alg».proof.Proof.MeanAlgebra

noncomputable section

namespace Cert.KernelIdeal.Tile

open Cert.KernelIdeal Cert.KernelIdeal.Gen Idealize.ShloMosaic Idealize.ShloMosaic.ValueIdx
open scoped BigOperators

variable {F : FTy → Type} [FloatOps F]

/-! ## One body for four calls -/

theorem step1_eq : (k1_pay2 (F := F)) = k0_pay2 := rfl
theorem step2_eq : (k2_pay2 (F := F)) = k0_pay2 := rfl
theorem step3_eq : (k3_pay2 (F := F)) = k0_pay2 := rfl
theorem start1_eq : (k1_pay1 (F := F)) = k0_pay1 := rfl
theorem start2_eq : (k2_pay1 (F := F)) = k0_pay1 := rfl
theorem start3_eq : (k3_pay1 (F := F)) = k0_pay1 := rfl

/-! ## The tiles folded in grid order -/

/-- The running block after the tiles blk 0, ..., blk n: the step applied from the zero block, tile after tile. -/
def fold (blk : ℕ → Vec F S8x1000x196 .f32) : ℕ → Vec F S1x1000x1 .f32
  | 0 => k0_pay2 (blk 0) k0_pay1
  | n + 1 => k0_pay2 (blk (n + 1)) (fold blk n)

/-! ## The step at a channel, at the ideal values -/

/-- A lane sum over the pixel axis of a tile, read at (k, c): the sum over the 196 pixels. -/
theorem pixelSum_apply (x : FVec Ideal S8x1000x196 .f32) (h : S8x1000x196.Reduces [2] S8x1000)
    (hφ : FKind.Formats .f32) (hacc : (0x00000000#32 : BitVec 32) = FKind.add.neutral .f32 hφ) (k : Fin 8) (c : Fin 1000) :
    multiReduction .add [2] S8x1000 x 0x00000000#32 h hφ hacc (ix2 k c) = ∑ l : Fin 196, x (ix3 k c l) :=
  (Ideal.multiReduction_add_single x 0x00000000#32 h hφ hacc (ix2 k c)).trans
    (Finset.sum_congr rfl fun l _ => congrArg x (funext fun a => match a with
      | ⟨0, _⟩ => rfl | ⟨1, _⟩ => rfl | ⟨2, _⟩ => rfl))

/-- A sum over the tile's map axis, read at (c, v): the sum over the 8 maps. -/
theorem mapSum_apply (y : FVec Ideal S8x1000x1 .f32) (h : S8x1000x1.Reduces [0] S1000x1)
    (hφ : FKind.Formats .f32) (hacc : (0x00000000#32 : BitVec 32) = FKind.add.neutral .f32 hφ) (c : Fin 1000) (v : Fin 1) :
    multiReduction .add [0] S1000x1 y 0x00000000#32 h hφ hacc (ix2 c v) = ∑ k : Fin 8, y (ix3 k c v) :=
  (Ideal.multiReduction_add_single y 0x00000000#32 h hφ hacc (ix2 c v)).trans
    (Finset.sum_congr rfl fun k _ => congrArg y (funext fun a => match a with
      | ⟨0, _⟩ => rfl | ⟨1, _⟩ => rfl | ⟨2, _⟩ => rfl))

/-- The per-map totals [8, 1000] given a trailing unit axis, read at (k, c, v): the total of map k at channel c. -/
theorem keepdims_apply {α : Type} (z : S8x1000.Idx → α) (h : S8x1000.ShapeCasts S8x1000x1) (k : Fin 8) (c : Fin 1000) (v : Fin 1) :
    shapeCast S8x1000x1 z h (ix3 k c v) = z (ix2 k c) :=
  shapeCast_apply z h _ _ (by
    have hv : v.val = 0 := by omega
    rw [Shape.rowMajor_val_three, Shape.rowMajor_val_two]
    show k.val * 1000 + c.val = (k.val * 1000 + c.val) * 1 + v.val
    omega)

/-- What a grid point leaves at channel c: what was there plus the tile's total at that channel. -/
theorem step_apply (x : Vec Ideal S8x1000x196 .f32) (acc : Vec Ideal S1x1000x1 .f32) (u : Fin 1) (c : Fin 1000) (v : Fin 1) :
    k0_pay2 (F := Ideal) x acc (ix3 u c v) = acc (ix3 u c v) + ∑ k : Fin 8, ∑ l : Fin 196, x (ix3 k c l) := by
  unfold k0_pay2
  refine (addf_apply _ _ _).trans ?_
  refine congrArg₂ (· + ·) (congrFun (shapeCast_self acc _) _) ?_
  refine (shapeCast_ab_1ab_apply _ _ u c v).trans ?_
  refine (mapSum_apply _ _ _ _ c v).trans (Finset.sum_congr rfl fun k _ => ?_)
  refine (keepdims_apply _ _ k c v).trans ?_
  refine (pixelSum_apply _ _ _ _ k c).trans (Finset.sum_congr rfl fun l _ => ?_)
  exact congrFun (shapeCast_self x _) _

/-- The block the first point starts from is zero everywhere. -/
theorem start_apply (i : S1x1000x1.Idx) : k0_pay1 (F := Ideal) i = 0 := Cert.Consts.ofBits_zero

/-- After the tiles 0, ..., n, channel c of the running block is the accumulator of the tiles' totals there. -/
theorem fold_apply (blk : ℕ → Vec Ideal S8x1000x196 .f32) (u : Fin 1) (c : Fin 1000) (v : Fin 1) :
    ∀ n, fold blk n (ix3 u c v) = Cert.MeanAlgebra.accum (fun t => ∑ k : Fin 8, ∑ l : Fin 196, blk t (ix3 k c l)) n
  | 0 => by rw [fold, step_apply, start_apply]; rfl
  | n + 1 => by rw [fold, step_apply, fold_apply blk u c v n]; rfl

end Cert.KernelIdeal.Tile

end
-- ==== Proof.Launch0.lean ====
/-
  Launch 0 of the summing kernel: what its output array holds when the launch ends.

  The launch visits 16 grid points; point t sees tile t of its input (maps 8 t, ..., 8 t + 7, all channels, all 196
  pixels) and one output block, the whole [1, 1000, 1] array, which stays in place from point to point and is written
  back after the last point only. Point 0 stores zeros and then adds its tile's totals; every later point adds its
  tile's totals to what the point before left. So after point n the block is the fold of the tiles 0, ..., n
  (after_point), the array ends at the fold of all 16 (final), and entry (k, c, l) of tile t is entry (8 t + k, c, l)
  of the input (tile_apply).
-/
import proofs.«133881_j87454124081405_2_alg».proof.Proof.Gen.KernelIdeal.Frame
import Idealize.ShloMosaic.Lib.Pipeline.Value
import Idealize.ShloMosaic.Lib.Tactic
import proofs.«133881_j87454124081405_2_alg».proof.Proof.TileSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch0

open Cert.KernelIdeal Cert.KernelIdeal.Gen Cert.KernelIdeal.Tile

variable {F : FTy → Type} [FloatOps F]
variable (V : (c : Dev nD) → (b : Ref sig .tc) → Buf (Elt F) ((c : Thread nD τ).loc b))

theorem hz : (![0, 0, 0] : Fin 3 → Nat) = fun _ => 0 := funext fun a => by fin_cases a <;> rfl

/-- A later point leaves, in the block holding acc, the step of its tile x from acc: its one store covers the block,
    and its loads read the two buffers whole. -/
theorem later_point (c : Dev nD) (i : grid0.Coords) (a1 : Memref sig .tc .vmem S8x1000x196 .f32) (h1 : a1.IsWhole)
    (a2 : Memref sig .tc .vmem S1x1000x1 .f32) (h2 : a2.IsWhole) (hc : ¬cond0_0 i) (x : Vec F S8x1000x196 .f32)
    (acc : Vec F S1x1000x1 .f32) :
    out0_B_1 c i a1 h1 a2 h2 hc x acc = k0_pay2 x acc := by
  unfold out0_B_1
  rw [View.read_writes_eq_canon _ _ _ (cover0_B_1 c i a1 h1 a2 h2 hc x acc)]
  unfold kernelRun0_B
  dsimp only
  rw [View.canon_unit_zero hz]
  simp only [View.readAt_eq_ld, h1.read_unread, h2.read_unread, View.ld_unit_zero (S := S8x1000x196) hz,
    View.ld_unit_zero (S := S1x1000x1) hz]
  all_goals rfl

/-- The first point stores the zero block, reads it back, and leaves the step of its tile from zero. -/
theorem first_point (c : Dev nD) (i : grid0.Coords) (a1 : Memref sig .tc .vmem S8x1000x196 .f32) (h1 : a1.IsWhole)
    (a2 : Memref sig .tc .vmem S1x1000x1 .f32) (h2 : a2.IsWhole) (hc : cond0_0 i) (x : Vec F S8x1000x196 .f32) :
    out0_A_1 c i a1 h1 a2 h2 hc x = k0_pay2 x k0_pay1 := by
  unfold out0_A_1
  rw [View.read_writes_eq_canon _ _ _ (cover0_A_1 c i a1 h1 a2 h2 hc x)]
  unfold kernelRun0_A
  dsimp only
  sl_unfold_words
  rw [View.canon_cons_unit_zero (S := S1x1000x1) hz, View.readCov_unit_zero (S := S1x1000x1) _ hz]
  simp only [View.readAt_eq_ld, h1.read_unread, View.ld_unit_zero (S := S8x1000x196) hz,
    View.ld_unit_zero (S := S1x1000x1) hz]
  all_goals rfl

/-- Tile n of the input as the launch finds it (the last tile again past the grid, to have a total function). -/
def tile (c : Dev nD) (n : ℕ) : Vec F S8x1000x196 .f32 :=
  iblk0 V c 0 ⟨min n 15, by rw [show cfg0.N = 16 from N_0]; omega⟩

theorem tile_of_lt (c : Dev nD) (n : ℕ) (h : n < cfg0.N) : tile V c n = iblk0 V c 0 ⟨n, h⟩ := by
  have hN : cfg0.N = 16 := N_0
  unfold tile
  congr 2
  omega

/-- After point n the output block holds the fold of the tiles 0, ..., n: by induction on the point. -/
theorem after_point (c : Dev nD) : ∀ (n : ℕ) (h : n < cfg0.N), outsAt0 V c n h = fold (tile V c) n
  | 0, h => by
    rw [outsAt0_A V c ⟨0, h⟩ rfl, first_point]
    show _ = k0_pay2 (tile V c 0) k0_pay1
    rw [tile_of_lt V c 0 h]
  | n + 1, h => by
    have hN : cfg0.N = 16 := N_0
    have hB : ¬(⟨n + 1, h⟩ : Fin cfg0.N).val % 16 = 0 := by dsimp only; omega
    rw [outsAt0_B V c ⟨n + 1, h⟩ hB, later_point]
    show k0_pay2 _ (outsAt0 V c n _) = k0_pay2 (tile V c (n + 1)) (fold (tile V c) n)
    rw [after_point c n, tile_of_lt V c (n + 1) h]

/-- The fold of all 16 tiles, as contents of the output array (its one block is the array). -/
abbrev total (c : Dev nD) : Buf (Elt F) ((c : Thread nD τ).loc main_v1) := fold (tile V c) 15

/-- The one write-back, after point 15, writes it: the block at zero offsets of the array is the array. -/
theorem flushed_eq (c : Dev nD) (t : Fin cfg0.N) (hf : (cfg0.win 1).flush t = true) :
    (dat0 V c).flushed 1 t = ((cfg0.win 1).blk t).view.read (Elt F) (total V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, after_point]
  have hz' : (fun a => win0_1.index t0_15 a * main_v1.ty.shape.size a) = fun _ => 0 := funext fun a => by fin_cases a <;> decide
  exact (Memref.read_access_unit_zero (Elt F) main_v1 hz' (fun a => by rw [congrFun hz' a]; simp) (total V c)).symm

/-- So the output array ends holding the fold of all 16 tiles: the last point's block covers it. -/
theorem final (c : Dev nD) : (dat0 V c).arrAt 1 cfg0.N = total V c :=
  (dat0 V c).arrAt_eq_of_cover 1 (total V c) (flushed_eq V c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 1 := (i 0).isLt
      have h1 : (i 1 : Nat) < 1000 := (i 1).isLt
      have h2 : (i 2 : Nat) < 1 := (i 2).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1000 from by decide +kernel]; omega
      | ⟨2, _⟩ => show win0_1.index t0_15 2 * win0_1.size 2 ≤ (i 2 : Nat) ∧ (i 2 : Nat) < win0_1.index t0_15 2 * win0_1.size 2 + win0_1.xsize (grid0.coords t0_15) 2
                  rw [show win0_1.index t0_15 2 * win0_1.size 2 = 0 from by decide +kernel, show win0_1.xsize (grid0.coords t0_15) 2 = 1 from by decide +kernel]; omega⟩

/-- The input window's block index at point t is (t, 0, 0): decided over the grid. -/
theorem block_index : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Entry (k, ch, l) of tile t is entry (8 t + k, ch, l) of the launch's input array. -/
theorem tile_apply (c : Dev nD) (t : Fin 16) (k : Fin 8) (ch : Fin 1000) (l : Fin 196) :
    tile V c t.val (ix3 k ch l) = V c main_v0 (ix3 (finProdFinEquiv (t, k) : Fin (16 * 8)) ch l) := by
  have hN : cfg0.N = 16 := N_0
  have ht : t.val < cfg0.N := by have := t.isLt; omega
  rw [tile_of_lt V c t.val ht]
  obtain ⟨h0, h1, h2⟩ := block_index ⟨t.val, ht⟩
  replace h0 : win0_0.index ⟨t.val, ht⟩ 0 = t.val := h0
  unfold iblk0
  rw [View.read_apply]
  show V c main_v0 _ = V c main_v0 _
  congr 1
  funext a
  apply Fin.ext
  have e : ((finProdFinEquiv (t, k) : Fin (16 * 8)) : ℕ) = k.val + 8 * t.val := rfl
  match a with
  | ⟨0, _⟩ => show win0_0.index ⟨t.val, ht⟩ 0 * 8 + 1 * k.val = (finProdFinEquiv (t, k) : Fin (16 * 8)).val; rw [h0, e]; omega
  | ⟨1, _⟩ => show win0_0.index ⟨t.val, ht⟩ 1 * 1000 + 1 * ch.val = ch.val; rw [h1]; omega
  | ⟨2, _⟩ => show win0_0.index ⟨t.val, ht⟩ 2 * 196 + 1 * l.val = l.val; rw [h2]; omega

/-- At the ideal values, when the launch's input is the argument x with its pixels flattened, channel ch of the
    launch's totals is the sum of every pixel of every map of x at that channel: the 16 tiles' totals are the 128
    maps' totals, and a map's 196 flattened pixels are its 14 rows of 14. -/
theorem total_apply (VI : (c : Dev nD) → (b : Ref sig .tc) → Buf (Elt Ideal) ((c : Thread nD τ).loc b)) (c : Dev nD)
    (x : FVec Ideal S128x1000x14x14 .f32)
    (hin : VI c main_v0 = shapeCast S128x1000x196 x shapeCasts_S128x1000x14x14_S128x1000x196)
    (u : Fin 1) (ch : Fin 1000) (v : Fin 1) :
    total VI c (ix3 u ch v) = ∑ b : Fin 128, ∑ i : Fin 14, ∑ j : Fin 14, x (ix4 b ch i j) := by
  show fold (tile VI c) 15 (ix3 u ch v) = _
  rw [fold_apply, Cert.MeanAlgebra.accum_eq_sum]
  rw [Cert.MeanAlgebra.sum_tiles (fun t k => ∑ l : Fin 196, tile VI c t (ix3 k ch l))
    (fun b => ∑ l : Fin 196, VI c main_v0 (ix3 b ch l))
    (fun t k => Finset.sum_congr rfl fun l _ => tile_apply VI c t k ch l)]
  refine Finset.sum_congr rfl fun b _ => ?_
  rw [hin]
  exact Cert.MeanAlgebra.sum_pixels x _ b ch

end Cert.KernelIdeal.Launch0

end
-- ==== Proof.Launch1.lean ====
/-
  Launch 1 of the summing kernel: what its output array holds when the launch ends.

  The launch visits 16 grid points; point t sees tile t of its input (maps 8 t, ..., 8 t + 7, all channels, all 196
  pixels) and one output block, the whole [1, 1000, 1] array, which stays in place from point to point and is written
  back after the last point only. Point 0 stores zeros and then adds its tile's totals; every later point adds its
  tile's totals to what the point before left. So after point n the block is the fold of the tiles 0, ..., n
  (after_point), the array ends at the fold of all 16 (final), and entry (k, c, l) of tile t is entry (8 t + k, c, l)
  of the input (tile_apply).
-/
import proofs.«133881_j87454124081405_2_alg».proof.Proof.Gen.KernelIdeal.Frame
import Idealize.ShloMosaic.Lib.Pipeline.Value
import Idealize.ShloMosaic.Lib.Tactic
import proofs.«133881_j87454124081405_2_alg».proof.Proof.TileSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch1

open Cert.KernelIdeal Cert.KernelIdeal.Gen Cert.KernelIdeal.Tile

variable {F : FTy → Type} [FloatOps F]
variable (V : (c : Dev nD) → (b : Ref sig .tc) → Buf (Elt F) ((c : Thread nD τ).loc b))

theorem hz : (![0, 0, 0] : Fin 3 → Nat) = fun _ => 0 := funext fun a => by fin_cases a <;> rfl

/-- A later point leaves, in the block holding acc, the step of its tile x from acc: its one store covers the block,
    and its loads read the two buffers whole. -/
theorem later_point (c : Dev nD) (i : grid1.Coords) (a1 : Memref sig .tc .vmem S8x1000x196 .f32) (h1 : a1.IsWhole)
    (a2 : Memref sig .tc .vmem S1x1000x1 .f32) (h2 : a2.IsWhole) (hc : ¬cond1_0 i) (x : Vec F S8x1000x196 .f32)
    (acc : Vec F S1x1000x1 .f32) :
    out1_B_1 c i a1 h1 a2 h2 hc x acc = k0_pay2 x acc := by
  unfold out1_B_1
  rw [View.read_writes_eq_canon _ _ _ (cover1_B_1 c i a1 h1 a2 h2 hc x acc)]
  unfold kernelRun1_B
  dsimp only
  rw [View.canon_unit_zero hz]
  simp only [View.readAt_eq_ld, h1.read_unread, h2.read_unread, View.ld_unit_zero (S := S8x1000x196) hz,
    View.ld_unit_zero (S := S1x1000x1) hz]
  all_goals rfl

/-- The first point stores the zero block, reads it back, and leaves the step of its tile from zero. -/
theorem first_point (c : Dev nD) (i : grid1.Coords) (a1 : Memref sig .tc .vmem S8x1000x196 .f32) (h1 : a1.IsWhole)
    (a2 : Memref sig .tc .vmem S1x1000x1 .f32) (h2 : a2.IsWhole) (hc : cond1_0 i) (x : Vec F S8x1000x196 .f32) :
    out1_A_1 c i a1 h1 a2 h2 hc x = k0_pay2 x k0_pay1 := by
  unfold out1_A_1
  rw [View.read_writes_eq_canon _ _ _ (cover1_A_1 c i a1 h1 a2 h2 hc x)]
  unfold kernelRun1_A
  dsimp only
  sl_unfold_words
  rw [View.canon_cons_unit_zero (S := S1x1000x1) hz, View.readCov_unit_zero (S := S1x1000x1) _ hz]
  simp only [View.readAt_eq_ld, h1.read_unread, View.ld_unit_zero (S := S8x1000x196) hz,
    View.ld_unit_zero (S := S1x1000x1) hz]
  all_goals rfl

/-- Tile n of the input as the launch finds it (the last tile again past the grid, to have a total function). -/
def tile (c : Dev nD) (n : ℕ) : Vec F S8x1000x196 .f32 :=
  iblk1 V c 0 ⟨min n 15, by rw [show cfg1.N = 16 from N_1]; omega⟩

theorem tile_of_lt (c : Dev nD) (n : ℕ) (h : n < cfg1.N) : tile V c n = iblk1 V c 0 ⟨n, h⟩ := by
  have hN : cfg1.N = 16 := N_1
  unfold tile
  congr 2
  omega

/-- After point n the output block holds the fold of the tiles 0, ..., n: by induction on the point. -/
theorem after_point (c : Dev nD) : ∀ (n : ℕ) (h : n < cfg1.N), outsAt1 V c n h = fold (tile V c) n
  | 0, h => by
    rw [outsAt1_A V c ⟨0, h⟩ rfl, first_point]
    show _ = k0_pay2 (tile V c 0) k0_pay1
    rw [tile_of_lt V c 0 h]
  | n + 1, h => by
    have hN : cfg1.N = 16 := N_1
    have hB : ¬(⟨n + 1, h⟩ : Fin cfg1.N).val % 16 = 0 := by dsimp only; omega
    rw [outsAt1_B V c ⟨n + 1, h⟩ hB, later_point]
    show k0_pay2 _ (outsAt1 V c n _) = k0_pay2 (tile V c (n + 1)) (fold (tile V c) n)
    rw [after_point c n, tile_of_lt V c (n + 1) h]

/-- The fold of all 16 tiles, as contents of the output array (its one block is the array). -/
abbrev total (c : Dev nD) : Buf (Elt F) ((c : Thread nD τ).loc main_v23) := fold (tile V c) 15

/-- The one write-back, after point 15, writes it: the block at zero offsets of the array is the array. -/
theorem flushed_eq (c : Dev nD) (t : Fin cfg1.N) (hf : (cfg1.win 1).flush t = true) :
    (dat1 V c).flushed 1 t = ((cfg1.win 1).blk t).view.read (Elt F) (total V c) := by
  have hN : cfg1.N = 16 := N_1
  have h15 : t.val = 15 := by have := (flush1_1 t).mp hf; have := t.isLt; omega
  obtain rfl : t = t1_15 := Fin.ext h15
  show (cfg1.win 1).cut (grid1.coords t1_15) ((dat1 V c).after 1 t1_15) = _
  rw [after1_1, after_point]
  have hz' : (fun a => win1_1.index t1_15 a * main_v23.ty.shape.size a) = fun _ => 0 := funext fun a => by fin_cases a <;> decide
  exact (Memref.read_access_unit_zero (Elt F) main_v23 hz' (fun a => by rw [congrFun hz' a]; simp) (total V c)).symm

/-- So the output array ends holding the fold of all 16 tiles: the last point's block covers it. -/
theorem final (c : Dev nD) : (dat1 V c).arrAt 1 cfg1.N = total V c :=
  (dat1 V c).arrAt_eq_of_cover 1 (total V c) (flushed_eq V c) fun i =>
    ⟨t1_15, (flush1_1 t1_15).mpr rfl, by
      show i ∈ ((View.whole main_v23).slice (win1_1.rect t1_15)).set
      rw [View.set_slice_whole, Rect.mem_set_unit]
      intro a
      have h0 : (i 0 : Nat) < 1 := (i 0).isLt
      have h1 : (i 1 : Nat) < 1000 := (i 1).isLt
      have h2 : (i 2 : Nat) < 1 := (i 2).isLt
      match a with
      | ⟨0, _⟩ => show win1_1.index t1_15 0 * win1_1.size 0 ≤ (i 0 : Nat) ∧ (i 0 : Nat) < win1_1.index t1_15 0 * win1_1.size 0 + win1_1.xsize (grid1.coords t1_15) 0
                  rw [show win1_1.index t1_15 0 * win1_1.size 0 = 0 from by decide +kernel, show win1_1.xsize (grid1.coords t1_15) 0 = 1 from by decide +kernel]; omega
      | ⟨1, _⟩ => show win1_1.index t1_15 1 * win1_1.size 1 ≤ (i 1 : Nat) ∧ (i 1 : Nat) < win1_1.index t1_15 1 * win1_1.size 1 + win1_1.xsize (grid1.coords t1_15) 1
                  rw [show win1_1.index t1_15 1 * win1_1.size 1 = 0 from by decide +kernel, show win1_1.xsize (grid1.coords t1_15) 1 = 1000 from by decide +kernel]; omega
      | ⟨2, _⟩ => show win1_1.index t1_15 2 * win1_1.size 2 ≤ (i 2 : Nat) ∧ (i 2 : Nat) < win1_1.index t1_15 2 * win1_1.size 2 + win1_1.xsize (grid1.coords t1_15) 2
                  rw [show win1_1.index t1_15 2 * win1_1.size 2 = 0 from by decide +kernel, show win1_1.xsize (grid1.coords t1_15) 2 = 1 from by decide +kernel]; omega⟩

/-- The input window's block index at point t is (t, 0, 0): decided over the grid. -/
theorem block_index : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)

/-- Entry (k, ch, l) of tile t is entry (8 t + k, ch, l) of the launch's input array. -/
theorem tile_apply (c : Dev nD) (t : Fin 16) (k : Fin 8) (ch : Fin 1000) (l : Fin 196) :
    tile V c t.val (ix3 k ch l) = V c main_v22 (ix3 (finProdFinEquiv (t, k) : Fin (16 * 8)) ch l) := by
  have hN : cfg1.N = 16 := N_1
  have ht : t.val < cfg1.N := by have := t.isLt; omega
  rw [tile_of_lt V c t.val ht]
  obtain ⟨h0, h1, h2⟩ := block_index ⟨t.val, ht⟩
  replace h0 : win1_0.index ⟨t.val, ht⟩ 0 = t.val := h0
  unfold iblk1
  rw [View.read_apply]
  show V c main_v22 _ = V c main_v22 _
  congr 1
  funext a
  apply Fin.ext
  have e : ((finProdFinEquiv (t, k) : Fin (16 * 8)) : ℕ) = k.val + 8 * t.val := rfl
  match a with
  | ⟨0, _⟩ => show win1_0.index ⟨t.val, ht⟩ 0 * 8 + 1 * k.val = (finProdFinEquiv (t, k) : Fin (16 * 8)).val; rw [h0, e]; omega
  | ⟨1, _⟩ => show win1_0.index ⟨t.val, ht⟩ 1 * 1000 + 1 * ch.val = ch.val; rw [h1]; omega
  | ⟨2, _⟩ => show win1_0.index ⟨t.val, ht⟩ 2 * 196 + 1 * l.val = l.val; rw [h2]; omega

/-- At the ideal values, when the launch's input is the argument x with its pixels flattened, channel ch of the
    launch's totals is the sum of every pixel of every map of x at that channel: the 16 tiles' totals are the 128
    maps' totals, and a map's 196 flattened pixels are its 14 rows of 14. -/
theorem total_apply (VI : (c : Dev nD) → (b : Ref sig .tc) → Buf (Elt Ideal) ((c : Thread nD τ).loc b)) (c : Dev nD)
    (x : FVec Ideal S128x1000x14x14 .f32)
    (hin : VI c main_v22 = shapeCast S128x1000x196 x shapeCasts_S128x1000x14x14_S128x1000x196)
    (u : Fin 1) (ch : Fin 1000) (v : Fin 1) :
    total VI c (ix3 u ch v) = ∑ b : Fin 128, ∑ i : Fin 14, ∑ j : Fin 14, x (ix4 b ch i j) := by
  show fold (tile VI c) 15 (ix3 u ch v) = _
  rw [fold_apply, Cert.MeanAlgebra.accum_eq_sum]
  rw [Cert.MeanAlgebra.sum_tiles (fun t k => ∑ l : Fin 196, tile VI c t (ix3 k ch l))
    (fun b => ∑ l : Fin 196, VI c main_v22 (ix3 b ch l))
    (fun t k => Finset.sum_congr rfl fun l _ => tile_apply VI c t k ch l)]
  refine Finset.sum_congr rfl fun b _ => ?_
  rw [hin]
  exact Cert.MeanAlgebra.sum_pixels x _ b ch

end Cert.KernelIdeal.Launch1

end
-- ==== Proof.Launch2.lean ====
/-
  Launch 2 of the summing kernel: what its output array holds when the launch ends.

  The launch visits 16 grid points; point t sees tile t of its input (maps 8 t, ..., 8 t + 7, all channels, all 196
  pixels) and one output block, the whole [1, 1000, 1] array, which stays in place from point to point and is written
  back after the last point only. Point 0 stores zeros and then adds its tile's totals; every later point adds its
  tile's totals to what the point before left. So after point n the block is the fold of the tiles 0, ..., n
  (after_point), the array ends at the fold of all 16 (final), and entry (k, c, l) of tile t is entry (8 t + k, c, l)
  of the input (tile_apply).
-/
import proofs.«133881_j87454124081405_2_alg».proof.Proof.Gen.KernelIdeal.Frame
import Idealize.ShloMosaic.Lib.Pipeline.Value
import Idealize.ShloMosaic.Lib.Tactic
import proofs.«133881_j87454124081405_2_alg».proof.Proof.TileSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch2

open Cert.KernelIdeal Cert.KernelIdeal.Gen Cert.KernelIdeal.Tile

variable {F : FTy → Type} [FloatOps F]
variable (V : (c : Dev nD) → (b : Ref sig .tc) → Buf (Elt F) ((c : Thread nD τ).loc b))

theorem hz : (![0, 0, 0] : Fin 3 → Nat) = fun _ => 0 := funext fun a => by fin_cases a <;> rfl

/-- A later point leaves, in the block holding acc, the step of its tile x from acc: its one store covers the block,
    and its loads read the two buffers whole. -/
theorem later_point (c : Dev nD) (i : grid2.Coords) (a1 : Memref sig .tc .vmem S8x1000x196 .f32) (h1 : a1.IsWhole)
    (a2 : Memref sig .tc .vmem S1x1000x1 .f32) (h2 : a2.IsWhole) (hc : ¬cond2_0 i) (x : Vec F S8x1000x196 .f32)
    (acc : Vec F S1x1000x1 .f32) :
    out2_B_1 c i a1 h1 a2 h2 hc x acc = k0_pay2 x acc := by
  unfold out2_B_1
  rw [View.read_writes_eq_canon _ _ _ (cover2_B_1 c i a1 h1 a2 h2 hc x acc)]
  unfold kernelRun2_B
  dsimp only
  rw [View.canon_unit_zero hz]
  simp only [View.readAt_eq_ld, h1.read_unread, h2.read_unread, View.ld_unit_zero (S := S8x1000x196) hz,
    View.ld_unit_zero (S := S1x1000x1) hz]
  all_goals rfl

/-- The first point stores the zero block, reads it back, and leaves the step of its tile from zero. -/
theorem first_point (c : Dev nD) (i : grid2.Coords) (a1 : Memref sig .tc .vmem S8x1000x196 .f32) (h1 : a1.IsWhole)
    (a2 : Memref sig .tc .vmem S1x1000x1 .f32) (h2 : a2.IsWhole) (hc : cond2_0 i) (x : Vec F S8x1000x196 .f32) :
    out2_A_1 c i a1 h1 a2 h2 hc x = k0_pay2 x k0_pay1 := by
  unfold out2_A_1
  rw [View.read_writes_eq_canon _ _ _ (cover2_A_1 c i a1 h1 a2 h2 hc x)]
  unfold kernelRun2_A
  dsimp only
  sl_unfold_words
  rw [View.canon_cons_unit_zero (S := S1x1000x1) hz, View.readCov_unit_zero (S := S1x1000x1) _ hz]
  simp only [View.readAt_eq_ld, h1.read_unread, View.ld_unit_zero (S := S8x1000x196) hz,
    View.ld_unit_zero (S := S1x1000x1) hz]
  all_goals rfl

/-- Tile n of the input as the launch finds it (the last tile again past the grid, to have a total function). -/
def tile (c : Dev nD) (n : ℕ) : Vec F S8x1000x196 .f32 :=
  iblk2 V c 0 ⟨min n 15, by rw [show cfg2.N = 16 from N_2]; omega⟩

theorem tile_of_lt (c : Dev nD) (n : ℕ) (h : n < cfg2.N) : tile V c n = iblk2 V c 0 ⟨n, h⟩ := by
  have hN : cfg2.N = 16 := N_2
  unfold tile
  congr 2
  omega

/-- After point n the output block holds the fold of the tiles 0, ..., n: by induction on the point. -/
theorem after_point (c : Dev nD) : ∀ (n : ℕ) (h : n < cfg2.N), outsAt2 V c n h = fold (tile V c) n
  | 0, h => by
    rw [outsAt2_A V c ⟨0, h⟩ rfl, first_point]
    show _ = k0_pay2 (tile V c 0) k0_pay1
    rw [tile_of_lt V c 0 h]
  | n + 1, h => by
    have hN : cfg2.N = 16 := N_2
    have hB : ¬(⟨n + 1, h⟩ : Fin cfg2.N).val % 16 = 0 := by dsimp only; omega
    rw [outsAt2_B V c ⟨n + 1, h⟩ hB, later_point]
    show k0_pay2 _ (outsAt2 V c n _) = k0_pay2 (tile V c (n + 1)) (fold (tile V c) n)
    rw [after_point c n, tile_of_lt V c (n + 1) h]

/-- The fold of all 16 tiles, as contents of the output array (its one block is the array). -/
abbrev total (c : Dev nD) : Buf (Elt F) ((c : Thread nD τ).loc main_v45) := fold (tile V c) 15

/-- The one write-back, after point 15, writes it: the block at zero offsets of the array is the array. -/
theorem flushed_eq (c : Dev nD) (t : Fin cfg2.N) (hf : (cfg2.win 1).flush t = true) :
    (dat2 V c).flushed 1 t = ((cfg2.win 1).blk t).view.read (Elt F) (total V c) := by
  have hN : cfg2.N = 16 := N_2
  have h15 : t.val = 15 := by have := (flush2_1 t).mp hf; have := t.isLt; omega
  obtain rfl : t = t2_15 := Fin.ext h15
  show (cfg2.win 1).cut (grid2.coords t2_15) ((dat2 V c).after 1 t2_15) = _
  rw [after2_1, after_point]
  have hz' : (fun a => win2_1.index t2_15 a * main_v45.ty.shape.size a) = fun _ => 0 := funext fun a => by fin_cases a <;> decide
  exact (Memref.read_access_unit_zero (Elt F) main_v45 hz' (fun a => by rw [congrFun hz' a]; simp) (total V c)).symm

/-- So the output array ends holding the fold of all 16 tiles: the last point's block covers it. -/
theorem final (c : Dev nD) : (dat2 V c).arrAt 1 cfg2.N = total V c :=
  (dat2 V c).arrAt_eq_of_cover 1 (total V c) (flushed_eq V c) fun i =>
    ⟨t2_15, (flush2_1 t2_15).mpr rfl, by
      show i ∈ ((View.whole main_v45).slice (win2_1.rect t2_15)).set
      rw [View.set_slice_whole, Rect.mem_set_unit]
      intro a
      have h0 : (i 0 : Nat) < 1 := (i 0).isLt
      have h1 : (i 1 : Nat) < 1000 := (i 1).isLt
      have h2 : (i 2 : Nat) < 1 := (i 2).isLt
      match a with
      | ⟨0, _⟩ => show win2_1.index t2_15 0 * win2_1.size 0 ≤ (i 0 : Nat) ∧ (i 0 : Nat) < win2_1.index t2_15 0 * win2_1.size 0 + win2_1.xsize (grid2.coords t2_15) 0
                  rw [show win2_1.index t2_15 0 * win2_1.size 0 = 0 from by decide +kernel, show win2_1.xsize (grid2.coords t2_15) 0 = 1 from by decide +kernel]; omega
      | ⟨1, _⟩ => show win2_1.index t2_15 1 * win2_1.size 1 ≤ (i 1 : Nat) ∧ (i 1 : Nat) < win2_1.index t2_15 1 * win2_1.size 1 + win2_1.xsize (grid2.coords t2_15) 1
                  rw [show win2_1.index t2_15 1 * win2_1.size 1 = 0 from by decide +kernel, show win2_1.xsize (grid2.coords t2_15) 1 = 1000 from by decide +kernel]; omega
      | ⟨2, _⟩ => show win2_1.index t2_15 2 * win2_1.size 2 ≤ (i 2 : Nat) ∧ (i 2 : Nat) < win2_1.index t2_15 2 * win2_1.size 2 + win2_1.xsize (grid2.coords t2_15) 2
                  rw [show win2_1.index t2_15 2 * win2_1.size 2 = 0 from by decide +kernel, show win2_1.xsize (grid2.coords t2_15) 2 = 1 from by decide +kernel]; omega⟩

/-- The input window's block index at point t is (t, 0, 0): decided over the grid. -/
theorem block_index : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)

/-- Entry (k, ch, l) of tile t is entry (8 t + k, ch, l) of the launch's input array. -/
theorem tile_apply (c : Dev nD) (t : Fin 16) (k : Fin 8) (ch : Fin 1000) (l : Fin 196) :
    tile V c t.val (ix3 k ch l) = V c main_v44 (ix3 (finProdFinEquiv (t, k) : Fin (16 * 8)) ch l) := by
  have hN : cfg2.N = 16 := N_2
  have ht : t.val < cfg2.N := by have := t.isLt; omega
  rw [tile_of_lt V c t.val ht]
  obtain ⟨h0, h1, h2⟩ := block_index ⟨t.val, ht⟩
  replace h0 : win2_0.index ⟨t.val, ht⟩ 0 = t.val := h0
  unfold iblk2
  rw [View.read_apply]
  show V c main_v44 _ = V c main_v44 _
  congr 1
  funext a
  apply Fin.ext
  have e : ((finProdFinEquiv (t, k) : Fin (16 * 8)) : ℕ) = k.val + 8 * t.val := rfl
  match a with
  | ⟨0, _⟩ => show win2_0.index ⟨t.val, ht⟩ 0 * 8 + 1 * k.val = (finProdFinEquiv (t, k) : Fin (16 * 8)).val; rw [h0, e]; omega
  | ⟨1, _⟩ => show win2_0.index ⟨t.val, ht⟩ 1 * 1000 + 1 * ch.val = ch.val; rw [h1]; omega
  | ⟨2, _⟩ => show win2_0.index ⟨t.val, ht⟩ 2 * 196 + 1 * l.val = l.val; rw [h2]; omega

/-- At the ideal values, when the launch's input is the argument x with its pixels flattened, channel ch of the
    launch's totals is the sum of every pixel of every map of x at that channel: the 16 tiles' totals are the 128
    maps' totals, and a map's 196 flattened pixels are its 14 rows of 14. -/
theorem total_apply (VI : (c : Dev nD) → (b : Ref sig .tc) → Buf (Elt Ideal) ((c : Thread nD τ).loc b)) (c : Dev nD)
    (x : FVec Ideal S128x1000x14x14 .f32)
    (hin : VI c main_v44 = shapeCast S128x1000x196 x shapeCasts_S128x1000x14x14_S128x1000x196)
    (u : Fin 1) (ch : Fin 1000) (v : Fin 1) :
    total VI c (ix3 u ch v) = ∑ b : Fin 128, ∑ i : Fin 14, ∑ j : Fin 14, x (ix4 b ch i j) := by
  show fold (tile VI c) 15 (ix3 u ch v) = _
  rw [fold_apply, Cert.MeanAlgebra.accum_eq_sum]
  rw [Cert.MeanAlgebra.sum_tiles (fun t k => ∑ l : Fin 196, tile VI c t (ix3 k ch l))
    (fun b => ∑ l : Fin 196, VI c main_v44 (ix3 b ch l))
    (fun t k => Finset.sum_congr rfl fun l _ => tile_apply VI c t k ch l)]
  refine Finset.sum_congr rfl fun b _ => ?_
  rw [hin]
  exact Cert.MeanAlgebra.sum_pixels x _ b ch

end Cert.KernelIdeal.Launch2

end
-- ==== Proof.Launch3.lean ====
/-
  Launch 3 of the summing kernel: what its output array holds when the launch ends.

  The launch visits 16 grid points; point t sees tile t of its input (maps 8 t, ..., 8 t + 7, all channels, all 196
  pixels) and one output block, the whole [1, 1000, 1] array, which stays in place from point to point and is written
  back after the last point only. Point 0 stores zeros and then adds its tile's totals; every later point adds its
  tile's totals to what the point before left. So after point n the block is the fold of the tiles 0, ..., n
  (after_point), the array ends at the fold of all 16 (final), and entry (k, c, l) of tile t is entry (8 t + k, c, l)
  of the input (tile_apply).
-/
import proofs.«133881_j87454124081405_2_alg».proof.Proof.Gen.KernelIdeal.Frame
import Idealize.ShloMosaic.Lib.Pipeline.Value
import Idealize.ShloMosaic.Lib.Tactic
import proofs.«133881_j87454124081405_2_alg».proof.Proof.TileSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Launch3

open Cert.KernelIdeal Cert.KernelIdeal.Gen Cert.KernelIdeal.Tile

variable {F : FTy → Type} [FloatOps F]
variable (V : (c : Dev nD) → (b : Ref sig .tc) → Buf (Elt F) ((c : Thread nD τ).loc b))

theorem hz : (![0, 0, 0] : Fin 3 → Nat) = fun _ => 0 := funext fun a => by fin_cases a <;> rfl

/-- A later point leaves, in the block holding acc, the step of its tile x from acc: its one store covers the block,
    and its loads read the two buffers whole. -/
theorem later_point (c : Dev nD) (i : grid3.Coords) (a1 : Memref sig .tc .vmem S8x1000x196 .f32) (h1 : a1.IsWhole)
    (a2 : Memref sig .tc .vmem S1x1000x1 .f32) (h2 : a2.IsWhole) (hc : ¬cond3_0 i) (x : Vec F S8x1000x196 .f32)
    (acc : Vec F S1x1000x1 .f32) :
    out3_B_1 c i a1 h1 a2 h2 hc x acc = k0_pay2 x acc := by
  unfold out3_B_1
  rw [View.read_writes_eq_canon _ _ _ (cover3_B_1 c i a1 h1 a2 h2 hc x acc)]
  unfold kernelRun3_B
  dsimp only
  rw [View.canon_unit_zero hz]
  simp only [View.readAt_eq_ld, h1.read_unread, h2.read_unread, View.ld_unit_zero (S := S8x1000x196) hz,
    View.ld_unit_zero (S := S1x1000x1) hz]
  all_goals rfl

/-- The first point stores the zero block, reads it back, and leaves the step of its tile from zero. -/
theorem first_point (c : Dev nD) (i : grid3.Coords) (a1 : Memref sig .tc .vmem S8x1000x196 .f32) (h1 : a1.IsWhole)
    (a2 : Memref sig .tc .vmem S1x1000x1 .f32) (h2 : a2.IsWhole) (hc : cond3_0 i) (x : Vec F S8x1000x196 .f32) :
    out3_A_1 c i a1 h1 a2 h2 hc x = k0_pay2 x k0_pay1 := by
  unfold out3_A_1
  rw [View.read_writes_eq_canon _ _ _ (cover3_A_1 c i a1 h1 a2 h2 hc x)]
  unfold kernelRun3_A
  dsimp only
  sl_unfold_words
  rw [View.canon_cons_unit_zero (S := S1x1000x1) hz, View.readCov_unit_zero (S := S1x1000x1) _ hz]
  simp only [View.readAt_eq_ld, h1.read_unread, View.ld_unit_zero (S := S8x1000x196) hz,
    View.ld_unit_zero (S := S1x1000x1) hz]
  all_goals rfl

/-- Tile n of the input as the launch finds it (the last tile again past the grid, to have a total function). -/
def tile (c : Dev nD) (n : ℕ) : Vec F S8x1000x196 .f32 :=
  iblk3 V c 0 ⟨min n 15, by rw [show cfg3.N = 16 from N_3]; omega⟩

theorem tile_of_lt (c : Dev nD) (n : ℕ) (h : n < cfg3.N) : tile V c n = iblk3 V c 0 ⟨n, h⟩ := by
  have hN : cfg3.N = 16 := N_3
  unfold tile
  congr 2
  omega

/-- After point n the output block holds the fold of the tiles 0, ..., n: by induction on the point. -/
theorem after_point (c : Dev nD) : ∀ (n : ℕ) (h : n < cfg3.N), outsAt3 V c n h = fold (tile V c) n
  | 0, h => by
    rw [outsAt3_A V c ⟨0, h⟩ rfl, first_point]
    show _ = k0_pay2 (tile V c 0) k0_pay1
    rw [tile_of_lt V c 0 h]
  | n + 1, h => by
    have hN : cfg3.N = 16 := N_3
    have hB : ¬(⟨n + 1, h⟩ : Fin cfg3.N).val % 16 = 0 := by dsimp only; omega
    rw [outsAt3_B V c ⟨n + 1, h⟩ hB, later_point]
    show k0_pay2 _ (outsAt3 V c n _) = k0_pay2 (tile V c (n + 1)) (fold (tile V c) n)
    rw [after_point c n, tile_of_lt V c (n + 1) h]

/-- The fold of all 16 tiles, as contents of the output array (its one block is the array). -/
abbrev total (c : Dev nD) : Buf (Elt F) ((c : Thread nD τ).loc main_v67) := fold (tile V c) 15

/-- The one write-back, after point 15, writes it: the block at zero offsets of the array is the array. -/
theorem flushed_eq (c : Dev nD) (t : Fin cfg3.N) (hf : (cfg3.win 1).flush t = true) :
    (dat3 V c).flushed 1 t = ((cfg3.win 1).blk t).view.read (Elt F) (total V c) := by
  have hN : cfg3.N = 16 := N_3
  have h15 : t.val = 15 := by have := (flush3_1 t).mp hf; have := t.isLt; omega
  obtain rfl : t = t3_15 := Fin.ext h15
  show (cfg3.win 1).cut (grid3.coords t3_15) ((dat3 V c).after 1 t3_15) = _
  rw [after3_1, after_point]
  have hz' : (fun a => win3_1.index t3_15 a * main_v67.ty.shape.size a) = fun _ => 0 := funext fun a => by fin_cases a <;> decide
  exact (Memref.read_access_unit_zero (Elt F) main_v67 hz' (fun a => by rw [congrFun hz' a]; simp) (total V c)).symm

/-- So the output array ends holding the fold of all 16 tiles: the last point's block covers it. -/
theorem final (c : Dev nD) : (dat3 V c).arrAt 1 cfg3.N = total V c :=
  (dat3 V c).arrAt_eq_of_cover 1 (total V c) (flushed_eq V c) fun i =>
    ⟨t3_15, (flush3_1 t3_15).mpr rfl, by
      show i ∈ ((View.whole main_v67).slice (win3_1.rect t3_15)).set
      rw [View.set_slice_whole, Rect.mem_set_unit]
      intro a
      have h0 : (i 0 : Nat) < 1 := (i 0).isLt
      have h1 : (i 1 : Nat) < 1000 := (i 1).isLt
      have h2 : (i 2 : Nat) < 1 := (i 2).isLt
      match a with
      | ⟨0, _⟩ => show win3_1.index t3_15 0 * win3_1.size 0 ≤ (i 0 : Nat) ∧ (i 0 : Nat) < win3_1.index t3_15 0 * win3_1.size 0 + win3_1.xsize (grid3.coords t3_15) 0
                  rw [show win3_1.index t3_15 0 * win3_1.size 0 = 0 from by decide +kernel, show win3_1.xsize (grid3.coords t3_15) 0 = 1 from by decide +kernel]; omega
      | ⟨1, _⟩ => show win3_1.index t3_15 1 * win3_1.size 1 ≤ (i 1 : Nat) ∧ (i 1 : Nat) < win3_1.index t3_15 1 * win3_1.size 1 + win3_1.xsize (grid3.coords t3_15) 1
                  rw [show win3_1.index t3_15 1 * win3_1.size 1 = 0 from by decide +kernel, show win3_1.xsize (grid3.coords t3_15) 1 = 1000 from by decide +kernel]; omega
      | ⟨2, _⟩ => show win3_1.index t3_15 2 * win3_1.size 2 ≤ (i 2 : Nat) ∧ (i 2 : Nat) < win3_1.index t3_15 2 * win3_1.size 2 + win3_1.xsize (grid3.coords t3_15) 2
                  rw [show win3_1.index t3_15 2 * win3_1.size 2 = 0 from by decide +kernel, show win3_1.xsize (grid3.coords t3_15) 2 = 1 from by decide +kernel]; omega⟩

/-- The input window's block index at point t is (t, 0, 0): decided over the grid. -/
theorem block_index : ∀ t : Fin cfg3.N, win3_0.index t 0 = t.val ∧ win3_0.index t 1 = 0 ∧ win3_0.index t 2 = 0 :=
  (by decide +kernel : ∀ t : Fin grid3.N, win3_0.index t 0 = t.val ∧ win3_0.index t 1 = 0 ∧ win3_0.index t 2 = 0)

/-- Entry (k, ch, l) of tile t is entry (8 t + k, ch, l) of the launch's input array. -/
theorem tile_apply (c : Dev nD) (t : Fin 16) (k : Fin 8) (ch : Fin 1000) (l : Fin 196) :
    tile V c t.val (ix3 k ch l) = V c main_v66 (ix3 (finProdFinEquiv (t, k) : Fin (16 * 8)) ch l) := by
  have hN : cfg3.N = 16 := N_3
  have ht : t.val < cfg3.N := by have := t.isLt; omega
  rw [tile_of_lt V c t.val ht]
  obtain ⟨h0, h1, h2⟩ := block_index ⟨t.val, ht⟩
  replace h0 : win3_0.index ⟨t.val, ht⟩ 0 = t.val := h0
  unfold iblk3
  rw [View.read_apply]
  show V c main_v66 _ = V c main_v66 _
  congr 1
  funext a
  apply Fin.ext
  have e : ((finProdFinEquiv (t, k) : Fin (16 * 8)) : ℕ) = k.val + 8 * t.val := rfl
  match a with
  | ⟨0, _⟩ => show win3_0.index ⟨t.val, ht⟩ 0 * 8 + 1 * k.val = (finProdFinEquiv (t, k) : Fin (16 * 8)).val; rw [h0, e]; omega
  | ⟨1, _⟩ => show win3_0.index ⟨t.val, ht⟩ 1 * 1000 + 1 * ch.val = ch.val; rw [h1]; omega
  | ⟨2, _⟩ => show win3_0.index ⟨t.val, ht⟩ 2 * 196 + 1 * l.val = l.val; rw [h2]; omega

/-- At the ideal values, when the launch's input is the argument x with its pixels flattened, channel ch of the
    launch's totals is the sum of every pixel of every map of x at that channel: the 16 tiles' totals are the 128
    maps' totals, and a map's 196 flattened pixels are its 14 rows of 14. -/
theorem total_apply (VI : (c : Dev nD) → (b : Ref sig .tc) → Buf (Elt Ideal) ((c : Thread nD τ).loc b)) (c : Dev nD)
    (x : FVec Ideal S128x1000x14x14 .f32)
    (hin : VI c main_v66 = shapeCast S128x1000x196 x shapeCasts_S128x1000x14x14_S128x1000x196)
    (u : Fin 1) (ch : Fin 1000) (v : Fin 1) :
    total VI c (ix3 u ch v) = ∑ b : Fin 128, ∑ i : Fin 14, ∑ j : Fin 14, x (ix4 b ch i j) := by
  show fold (tile VI c) 15 (ix3 u ch v) = _
  rw [fold_apply, Cert.MeanAlgebra.accum_eq_sum]
  rw [Cert.MeanAlgebra.sum_tiles (fun t k => ∑ l : Fin 196, tile VI c t (ix3 k ch l))
    (fun b => ∑ l : Fin 196, VI c main_v66 (ix3 b ch l))
    (fun t k => Finset.sum_congr rfl fun l _ => tile_apply VI c t k ch l)]
  refine Finset.sum_congr rfl fun b _ => ?_
  rw [hin]
  exact Cert.MeanAlgebra.sum_pixels x _ b ch

end Cert.KernelIdeal.Launch3

end
-- ==== Proof.RefMean.lean ====
/-
  The reference's per-channel mean activation, read at a channel.

  The reference sums each map's 14 x 14 pixels from zero and divides by 196, then sums the 128 per-map means from zero
  and divides by 128. At the ideal values, at channel c, that is

      (0 + sum over the maps b of (0 + sum over the pixels (i, j) of x (b, c, i, j)) / 196) / 128       (mean_apply).
-/
import proofs.«133881_j87454124081405_2_alg».proof.Proof.Gen.ReferenceIdeal
import Idealize.ShloMosaic.Lib.ValueIdx
import Idealize.ShloMosaic.PureOps.Ideal.Laws
import proofs.«133881_j87454124081405_2_alg».proof.Proof.MeanAlgebra

noncomputable section

namespace Cert.ReferenceIdeal.RefMean

open Cert.ReferenceIdeal Cert.ReferenceIdeal.Gen Idealize.ShloMosaic Idealize.ShloMosaic.ValueIdx
open scoped BigOperators

variable {F : FTy → Type} [FloatOps F]

/-- The mean over the maps of the per-map pixel means, as the reference's operations compute it. -/
def mean (x : FVec F S128x1000x14x14 .f32) : FVec F S1000 .f32 :=
  Host.divf
    (Host.reduceAdd
      (Host.divf (Host.reduceAdd x (constant S_ .f32 0x00000000#32) reducesTo_S128x1000x14x14_S128x1000_d2_3 h_S_)
        (broadcastInDim S128x1000 ![] bcast_S_S128x1000 (constant S_ .f32 0x43440000#32)))
      (constant S_ .f32 0x00000000#32) reducesTo_S128x1000_S1000_d0 h_S_)
    (broadcastInDim S1000 ![] bcast_S_S1000 (constant S_ .f32 0x43000000#32))

/-- The reference's loss from an input and the labels: the mean over the channels of the distance between the
    channel's mean activation and the channel's share of the 128 labels (the labels counted by a scatter-add of ones
    into zeros, negative labels first clamped to zero). -/
def loss (x : FVec F S128x1000x14x14 .f32) (labels : IVec S128 32) : FVec F S_ .f32 :=
  Host.divf
    (Host.reduceAdd
      (Host.absf
        (subf (mean x)
          (Host.divf
            (sitofp .f32
              (Host.scatter scatter_S1000_S128x1_S128_n_0_0_1 IntOp.addi
                (broadcastInDim S1000 ![] bcast_S_S1000 (constantI S_ 32 0#32))
                (broadcastInDim S128x1 ![0] bcast_S128_S128x1_0
                  (select
                    (cmpi .slt (maxsi (broadcastInDim S128 ![] bcast_S_S128 (id (constantI S_ 32 0#32))) labels)
                      (broadcastInDim S128 ![] bcast_S_S128 (constantI S_ 32 0#32)))
                    (addi (maxsi (broadcastInDim S128 ![] bcast_S_S128 (id (constantI S_ 32 0#32))) labels)
                      (broadcastInDim S128 ![] bcast_S_S128 (constantI S_ 32 1000#32)))
                    (maxsi (broadcastInDim S128 ![] bcast_S_S128 (id (constantI S_ 32 0#32))) labels)))
                (broadcastInDim S128 ![] bcast_S_S128 (constantI S_ 32 1#32))))
            (broadcastInDim S1000 ![] bcast_S_S1000 (constant S_ .f32 0x43000000#32)))))
      (constant S_ .f32 0x00000000#32) reducesTo_S1000_S_d0 h_S_)
    (constant S_ .f32 0x447A0000#32)

/-- The reference's mean at channel c, at the ideal values. -/
theorem mean_apply (x : FVec Ideal S128x1000x14x14 .f32) (c : Fin 1000) :
    mean (F := Ideal) x (ix1 c)
      = Ideal.div (0 + ∑ b : Fin 128, Ideal.div (0 + ∑ i : Fin 14, ∑ j : Fin 14, x (ix4 b c i j)) ((196 : ℝ) : EReal))
          ((128 : ℝ) : EReal) := by
  unfold mean
  simp only [Host.divf, Host.reduceAdd, Ideal.hostReduceAdd_def, Ideal.hostDivf_def, broadcastInDim, constant,
    Ideal.ofBits_def, Cert.Consts.ofBits_zero, Cert.Consts.ofBits_196, Cert.Consts.ofBits_128]
  have hR : S128x1000.Reduces [0] S1000 := by decide
  rw [Ideal.hostReduceAdd_single reducesTo_S128x1000_S1000_d0 hR]
  refine congrArg (fun z => Ideal.div (0 + z) _) (Finset.sum_congr rfl fun (b : Fin 128) _ => ?_)
  have e : hR.lift (ix1 c) b = ix2 b c :=
    funext fun a => Fin.ext (by match a with | ⟨0, _⟩ => rfl | ⟨1, _⟩ => rfl)
  rw [e]
  show Ideal.div (Ideal.hostReduceAdd reducesTo_S128x1000x14x14_S128x1000_d2_3 x 0 (ix2 b c))
    (Ideal.ofBits .f32 0x43440000#32) = _
  rw [Cert.Consts.ofBits_196]
  unfold Ideal.hostReduceAdd
  rw [Cert.MeanAlgebra.sum_drop_pixels]

end Cert.ReferenceIdeal.RefMean

end
-- ==== Proof.Finite.lean ====
/-
  The precondition, read: every entry of the four float inputs is a real number.

  The precondition is the conjunction, over the four inputs, of "every entry's absolute value lies below +inf". An
  extended real with that property is a real, so each input is the coercion of a real array.
-/
import proofs.«133881_j87454124081405_2_alg».proof.Pre_finite_inputs
import proofs.«133881_j87454124081405_2_alg».proof.Proof.Gen.Pre_finite_inputs
import Idealize.ShloMosaic.Lib.ReduceAll
import Idealize.ShloMosaic.Lib.ValueIdx
import proofs.«133881_j87454124081405_2_alg».proof.Proof.MeanAlgebra

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- One conjunct: if every entry's absolute value compares below the word of +inf, every entry is a real. -/
theorem real_of_all (x : FVec Ideal S128x1000x14x14 .f32)
    (h : Host.reduce IntOp.andi
        (cmpf .olt (Host.absf x) (broadcastInDim S128x1000x14x14 ![] bcast_S_S128x1000x14x14 (constant S_ .f32 0x7F800000#32)))
        (constantI S_ 1 1#1) reducesTo_S128x1000x14x14_S_d0_1_2_3 h_S_ ix0 = 1#1)
    (i : S128x1000x14x14.Idx) : ∃ r : ℝ, x i = (r : EReal) := by
  have hi := Host.reduce_andi_all _ _ _ _ ix0 h i
  apply Cert.MeanAlgebra.real_of_abs_lt_top
  have hc : BitVec.ofBool (decide (max (x i) (-(x i)) < Ideal.ofBits .f32 0x7F800000#32)) = 1#1 := hi
  rw [Cert.Consts.ofBits_inf] at hc
  by_contra hne
  rw [decide_eq_false hne] at hc
  exact absurd hc (by decide)

/-- The precondition gives all four inputs real entries. -/
theorem real_inputs (a0 a1 a2 a3 : FVec Ideal S128x1000x14x14 .f32) (a4 : IVec S128 32)
    (h : fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 h0', real_of_all a1 h1, real_of_all a2 h2, real_of_all a3 h3⟩

end Cert.Pre_finite_inputs.Finite

end
-- ==== Proof.Bridge.lean ====
/-
  The two per-channel means are one function of a finite input.

  The kernel divides the grand total of a channel — every pixel of every map — by 25088; the reference takes the mean
  over the maps of the per-map pixel means. For an input with real entries the two agree, channel by channel
  (mean_eq): the per-map totals are reals, and for reals dividing each by 196, summing, and dividing by 128 is
  dividing the sum by 196 * 128 = 25088.
-/
import Idealize.ShloMosaic.Lib.ValueIdx
import Idealize.ShloMosaic.Lib.Pipeline.Value
import proofs.«133881_j87454124081405_2_alg».proof.Proof.MeanAlgebra
import proofs.«133881_j87454124081405_2_alg».proof.Proof.RefMean
import proofs.«133881_j87454124081405_2_alg».proof.Proof.KernelRun

noncomputable section

namespace Cert.Proof.Bridge

open Idealize.ShloMosaic Idealize.ShloMosaic.ValueIdx
open scoped BigOperators

/-- The totals [1, 1000, 1] viewed as a vector [1000]: channel c reads (0, c, 0). -/
theorem squeeze_apply {α : Type} (z : (⟨3, ![1, 1000, 1]⟩ : Shape).Idx → α)
    (h : (⟨3, ![1, 1000, 1]⟩ : Shape).ShapeCasts ⟨1, ![1000]⟩) (c : Fin 1000) :
    shapeCast ⟨1, ![1000]⟩ z h (ix1 c) = z (ix3 (0 : Fin 1) c (0 : Fin 1)) :=
  shapeCast_apply z h _ _ (by
    rw [Shape.rowMajor_val_three, Shape.rowMajor_val_one]
    show (0 * 1000 + c.val) * 1 + 0 = c.val
    omega)

/-- For an input x with real entries and channel totals tot (every pixel of every map, channel by channel), the
    totals divided by 25088 are the reference's mean of per-map means. -/
theorem mean_eq (x : FVec Ideal Cert.ReferenceIdeal.S128x1000x14x14 .f32) (hx : ∀ i, ∃ r : ℝ, x i = (r : EReal))
    (tot : Vec Ideal Cert.KernelIdeal.S1x1000x1 .f32)
    (htot : ∀ (u : Fin 1) (c : Fin 1000) (v : Fin 1),
      tot (ix3 u c v) = ∑ b : Fin 128, ∑ i : Fin 14, ∑ j : Fin 14, x (ix4 b c i j))
    (h : Cert.KernelIdeal.S1x1000x1.ShapeCasts Cert.KernelIdeal.S1000)
    (hb : Cert.KernelIdeal.S_.BroadcastsInDim Cert.KernelIdeal.S1000 (![] : Fin 0 → Fin Cert.KernelIdeal.S1000.rank)) :
    Host.divf (F := Ideal) (shapeCast Cert.KernelIdeal.S1000 tot h)
        (broadcastInDim Cert.KernelIdeal.S1000 ![] hb (constant (F := Ideal) Cert.KernelIdeal.S_ .f32 0x46C40000#32))
      = Cert.ReferenceIdeal.RefMean.mean (F := Ideal) x := by
  funext i
  obtain ⟨c, rfl⟩ : ∃ c : Fin 1000, i = ix1 c := ⟨i 0, eq_ix1 i⟩
  rw [Cert.ReferenceIdeal.RefMean.mean_apply]
  show Ideal.div (shapeCast _ tot h (ix1 c)) (Ideal.ofBits .f32 0x46C40000#32) = _
  rw [squeeze_apply, htot, Cert.Consts.ofBits_25088]
  choose X hX using hx
  have hrow : ∀ b : Fin 128, (∑ i : Fin 14, ∑ j : Fin 14, x (ix4 b c i j))
      = ((∑ i : Fin 14, ∑ j : Fin 14, X (ix4 b c i j) : ℝ) : EReal) := fun b => by
    rw [Cert.LibNormalize.coe_sum]
    refine Finset.sum_congr rfl fun i _ => ?_
    rw [Cert.LibNormalize.coe_sum]
    exact Finset.sum_congr rfl fun j _ => hX _
  simp only [hrow]
  exact (Cert.MeanAlgebra.mean_of_means Finset.univ _).symm

/-- So, from totals of a finite input, the kernel program's loss is the reference's loss of that input: the two differ
    only in how the per-channel mean is reached; the label counts, the distance and the final mean are the same
    operations on both sides. -/
theorem loss_eq (x : FVec Ideal Cert.ReferenceIdeal.S128x1000x14x14 .f32) (hx : ∀ i, ∃ r : ℝ, x i = (r : EReal))
    (tot : Vec Ideal Cert.KernelIdeal.S1x1000x1 .f32)
    (htot : ∀ (u : Fin 1) (c : Fin 1000) (v : Fin 1),
      tot (ix3 u c v) = ∑ b : Fin 128, ∑ i : Fin 14, ∑ j : Fin 14, x (ix4 b c i j))
    (labels : IVec Cert.KernelIdeal.S128 32) :
    Cert.KernelIdeal.KRun.loss (F := Ideal) tot labels = Cert.ReferenceIdeal.RefMean.loss (F := Ideal) x labels := by
  unfold Cert.KernelIdeal.KRun.loss Cert.ReferenceIdeal.RefMean.loss
  rw [mean_eq x hx tot htot]
  rfl

end Cert.Proof.Bridge

end
-- ==== Proof.lean ====
/-
  The calibration loss of four feature maps against one label vector: a kernel program against its jnp reference.

  For each of four inputs x of shape [128, 1000, 14, 14] (128 maps, 1000 channels, 14 x 14 pixels) and labels in
  [128], both programs return

      mean over the channels c of | avg_c - count_c / 128 |

  where count_c is the number of labels equal to c, and avg_c is the mean of x over the maps and pixels of channel c.
  They differ in how avg_c is reached. The kernel program flattens the pixels, launches a kernel that walks the
  batch in 16 tiles of 8 maps and accumulates, in one resident [1, 1000, 1] block, each tile's total per channel
  (zero stored at the first tile), and then divides the grand total by 128 * 196 = 25088. The reference takes the
  per-map mean over the pixels (sum / 196) and then the mean over the maps (sum / 128).

  At the ideal values these agree for finite inputs: the accumulated block is the plain sum of all entries of the
  channel (addition of extended reals is associative and commutative), and for real entries dividing each per-map
  total by 196, summing, and dividing by 128 is dividing the sum by 25088 — distributivity, which is where the
  finiteness precondition is used. The label counts, the distance and the final mean are the same operations on both
  sides.

  The modules: MeanAlgebra (the sums and the law), TileSum (one grid point's step at a channel), Launch0 ... Launch3
  (each launch's output array is the fold of its 16 tiles), KernelRun (the program's four results as the loss of each
  launch's totals), RefMean (the reference's mean at a channel), Finite (the precondition gives real entries),
  Bridge (the two losses are equal). The three frames are the generated ones; nothing was rewritten on the way from
  the printed kernel to its idealization, so that conjunct is trivial.
-/
import proofs.«133881_j87454124081405_2_alg».proof.Defs
import proofs.«133881_j87454124081405_2_alg».proof.Proof.Gen.Kernel
import proofs.«133881_j87454124081405_2_alg».proof.Proof.Gen.Kernel.Frame
import proofs.«133881_j87454124081405_2_alg».proof.Proof.Gen.KernelIdeal
import proofs.«133881_j87454124081405_2_alg».proof.Proof.Gen.KernelIdeal.Frame
import proofs.«133881_j87454124081405_2_alg».proof.Proof.Gen.ReferenceIdeal
import proofs.«133881_j87454124081405_2_alg».proof.Proof.Gen.Pre_finite_inputs
import proofs.«133881_j87454124081405_2_alg».proof.Proof.Gen.ReferenceIdeal.Run
import proofs.«133881_j87454124081405_2_alg».proof.Proof.KernelRun
import proofs.«133881_j87454124081405_2_alg».proof.Proof.Launch0
import proofs.«133881_j87454124081405_2_alg».proof.Proof.Launch1
import proofs.«133881_j87454124081405_2_alg».proof.Proof.Launch2
import proofs.«133881_j87454124081405_2_alg».proof.Proof.Launch3
import proofs.«133881_j87454124081405_2_alg».proof.Proof.RefMean
import proofs.«133881_j87454124081405_2_alg».proof.Proof.Finite
import proofs.«133881_j87454124081405_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with result r at the reference's loss of input r and the labels: the kernel program's result is
    the loss of launch r's totals, launch r's totals are the fold of its 16 tiles of the flattened input, and for the
    finite input that fold divided by 25088 is the reference's mean of means. -/
theorem algebraic : Cert.algebraic_KernelIdeal_ReferenceIdeal := by
  intro m ρ m' ρ' hpre hagree
  refine ⟨_, _, _, _, Cert.KernelIdeal.KRun.run_values (F := Ideal) m ρ, ?_⟩
  refine (θ_run Cert.ReferenceIdeal.defs _ _).mono (fun _ h c => ?_) (Cert.ReferenceIdeal.Value.run (F := Ideal) m' ρ')
  obtain ⟨hr0, hr1, hr2, hr3, ha⟩ := h c
  obtain ⟨hx0, hx1, hx2, hx3⟩ := Cert.Pre_finite_inputs.Finite.real_inputs _ _ _ _ _ (hpre c)
  obtain ⟨e0, e1, e2, e3, e4⟩ := hagree c
  refine ⟨hr0.trans ?_, hr1.trans ?_, hr2.trans ?_, hr3.trans ?_, ha⟩
  · rw [e0, e4, Cert.KernelIdeal.Launch0.final]
    exact (Bridge.loss_eq _ hx0 _ (Cert.KernelIdeal.Launch0.total_apply _ c _ (Cert.KernelIdeal.KRun.input0 m ρ c)) _).symm
  · rw [e1, e4, Cert.KernelIdeal.Launch1.final]
    exact (Bridge.loss_eq _ hx1 _ (Cert.KernelIdeal.Launch1.total_apply _ c _ (Cert.KernelIdeal.KRun.input1 m ρ c)) _).symm
  · rw [e2, e4, Cert.KernelIdeal.Launch2.final]
    exact (Bridge.loss_eq _ hx2 _ (Cert.KernelIdeal.Launch2.total_apply _ c _ (Cert.KernelIdeal.KRun.input2 m ρ c)) _).symm
  · rw [e3, e4, Cert.KernelIdeal.Launch3.final]
    exact (Bridge.loss_eq _ hx3 _ (Cert.KernelIdeal.Launch3.total_apply _ c _ (Cert.KernelIdeal.KRun.input3 m ρ c)) _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
